-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_1)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_1) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x256 .f32) (main_arg5 : FVec F S256 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S8192x8192 .f32) (main_arg2 : FVec F S128 .f32) (main_arg3 : FVec F S128 .f32) (main_arg4 : FVec F S128x256 .f32) (main_arg5 : FVec F S256 .f32) (main_arg6 : FVec F S128x128 .f32) (main_arg7 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S128x8192 : Shape := ⟨2, ![128, 8192]⟩
abbrev S128x1 : Shape := ⟨2, ![128, 1]⟩

abbrev nBuf : Space → Nat
  | .hbm => 62
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S8192x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x256, .f32⟩
  | .hbm, ⟨53, _⟩ => ⟨S1x256, .f32⟩
  | .hbm, ⟨54, _⟩ => ⟨S8192x256, .f32⟩
  | .hbm, ⟨55, _⟩ => ⟨S8192x256, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x8192, .f32⟩
  | .hbm, ⟨61, _⟩ => ⟨S8192x128, .f32⟩
  | .local _ .vmem, ⟨0, _⟩ => ⟨S128x8192, .f32⟩
  | .local _ .vmem, ⟨1, _⟩ => ⟨S128x8192, .f32⟩
  | .local _ .vmem, ⟨2, _⟩ => ⟨S8192x256, .f32⟩
  | .local _ .vmem, ⟨3, _⟩ => ⟨S8192x128, .f32⟩
  | .local _ .vmem, ⟨4, _⟩ => ⟨S128x8192, .f32⟩
  | .local _ .vmem, ⟨5, _⟩ => ⟨S128x8192, .f32⟩
  | .local _ .vmem, ⟨6, _⟩ => ⟨S128x128, .f32⟩
  | .local _ .vmem, ⟨7, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27_0 : Ref sig .tc := ⟨.hbm, 60, rfl⟩
abbrev main_v27_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![v4.toNat, 0]
def k0_off2 (i : grid0.Coords) : Fin 2 → Nat :=
  let c0_9 : Index := 0#32
  let arg0 : BitVec 32 := BitVec.ofNat 32 (i 0).val
  let c128_i32 : BitVec 32 := 128#32
  let v0 : BitVec 32 := Scalar.muli arg0 c128_i32
  let v1 : BitVec 32 := v0
  let v25 : Index := Scalar.indexCast v1
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  h_S128x256 : 0 < S128x256.numel
  shapeCasts_S128x256_S128x256 : S128x256.ShapeCasts S128x256
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  h_S128x128 : 0 < S128x128.numel
  iota_S128x128_d0_w32 : S128x128.Iotas .tc 32 [0]
  iota_S128x128_d1_w32 : S128x128.Iotas .tc 32 [1]
  reduces_S128x128_S128 : S128x128.Reduces [1] S128
  iota_S128x8192_d0_w32 : S128x8192.Iotas .tc 32 [0]
  iota_S128x8192_d1_w32 : S128x8192.Iotas .tc 32 [1]
  shapeCasts_S128x1_S128x1 : S128x1.ShapeCasts S128x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  dot_S8192x128_S128x256_S8192x256_1_0_0_1_n_n_wf : DotDims.WF S8192x128 S128x256 S8192x256 [1] [0] [0] [1] [] []
  dot_S8192x128_S128x128_S8192x128_1_0_0_1_n_n_wf : DotDims.WF S8192x128 S128x128 S8192x128 [1] [0] [0] [1] [] []
  dot_S128x256_S8192x256_S128x8192_1_1_0_0_n_n_wf : DotDims.WF S128x256 S8192x256 S128x8192 [1] [1] [0] [0] [] []
  dot_S128x256_S128x256_S128x128_1_1_0_0_n_n_wf : DotDims.WF S128x256 S128x256 S128x128 [1] [1] [0] [0] [] []
  dot_S128x8192_S8192x128_S128x128_1_0_0_1_n_n_wf : DotDims.WF S128x8192 S8192x128 S128x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x256.size a ≤ S8192x256.size a
  k0_off2_inb : ∀ i : grid0.Coords, ∀ a, (k0_off2 i) a + S128x128.size a ≤ S128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S8192x128.size a
  hwx0_4 : ∀ i : grid0.Coords, EltTy.bits .f32 = 32 ∨ (Rect.block (s := S8192x128) S128x128.size (cc0_transform_4 i) (hinb0_4 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S128x256_S128x256_S128x128_1_1_0_0_n_n : DotDims S128x256 S128x256 S128x128 where
  lhsContracting := [1]
  rhsContracting := [1]
  lhsNonContracting := [0]
  rhsNonContracting := [0]
  lhsBatch := []
  rhsBatch := []
  wf := dot_S128x256_S128x256_S128x128_1_1_0_0_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

abbrev win0_0 : Pipeline.Window sig grid0 :=
  Pipeline.Window.ofSpec (Memref.whole main_arg1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S128x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩
abbrev S1x128 : Shape := ⟨2, ![1, 128]⟩
abbrev S8192x256 : Shape := ⟨2, ![8192, 256]⟩
abbrev S1x256 : Shape := ⟨2, ![1, 256]⟩
abbrev S256x8192 : Shape := ⟨2, ![256, 8192]⟩
abbrev S8192 : Shape := ⟨1, ![8192]⟩
abbrev S8192x1 : Shape := ⟨2, ![8192, 1]⟩

abbrev nBuf : Space → Nat
  | .hbm => 133
  | .vmem => 0
  | .smem => 0
  | _ => 0

abbrev hbmTy0_0 (i : Nat) : BufTy := match i % 128 with
  | 0 => ⟨S8192x128, .f32⟩
  | 1 => ⟨S8192x8192, .f32⟩
  | 2 => ⟨S128, .f32⟩
  | 3 => ⟨S128, .f32⟩
  | 4 => ⟨S128x256, .f32⟩
  | 5 => ⟨S256, .f32⟩
  | 6 => ⟨S128x128, .f32⟩
  | 7 => ⟨S128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S8192x128, .f32⟩
  | 21 => ⟨S8192x128, .f32⟩
  | 22 => ⟨S8192x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S8192x128, .f32⟩
  | 38 => ⟨S8192x128, .f32⟩
  | 39 => ⟨S_, .f32⟩
  | 40 => ⟨S128, .f32⟩
  | 41 => ⟨S128, .f32⟩
  | 42 => ⟨S128, .f32⟩
  | 43 => ⟨S1x128, .f32⟩
  | 44 => ⟨S8192x128, .f32⟩
  | 45 => ⟨S8192x128, .f32⟩
  | 46 => ⟨S1x128, .f32⟩
  | 47 => ⟨S8192x128, .f32⟩
  | 48 => ⟨S8192x128, .f32⟩
  | 49 => ⟨S1x128, .f32⟩
  | 50 => ⟨S8192x128, .f32⟩
  | 51 => ⟨S8192x128, .f32⟩
  | 52 => ⟨S8192x256, .f32⟩
  | 53 => ⟨S1x256, .f32⟩
  | 54 => ⟨S8192x256, .f32⟩
  | 55 => ⟨S8192x256, .f32⟩
  | 56 => ⟨S256x8192, .f32⟩
  | 57 => ⟨S8192x8192, .f32⟩
  | 58 => ⟨S8192x8192, .f32⟩
  | 59 => ⟨S8192x8192, .f32⟩
  | 60 => ⟨S_, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | 66 => ⟨S_, .f32⟩
  | 67 => ⟨S8192x8192, .f32⟩
  | 68 => ⟨S8192x8192, .f32⟩
  | 69 => ⟨S8192x8192, .f32⟩
  | 70 => ⟨S_, .f32⟩
  | 71 => ⟨S8192x8192, .f32⟩
  | 72 => ⟨S8192x8192, .i1⟩
  | 73 => ⟨S_, .f32⟩
  | 74 => ⟨S8192x8192, .f32⟩
  | 75 => ⟨S8192x8192, .f32⟩
  | 76 => ⟨S8192x8192, .i32⟩
  | 77 => ⟨S8192x8192, .i32⟩
  | 78 => ⟨S_, .i32⟩
  | 79 => ⟨S8192x8192, .i32⟩
  | 80 => ⟨S8192x8192, .i32⟩
  | 81 => ⟨S8192x8192, .i1⟩
  | 82 => ⟨S8192x8192, .f32⟩
  | 83 => ⟨S8192x8192, .f32⟩
  | 84 => ⟨S_, .f32⟩
  | 85 => ⟨S8192, .f32⟩
  | 86 => ⟨S_, .f32⟩
  | 87 => ⟨S8192, .f32⟩
  | 88 => ⟨S8192, .f32⟩
  | 89 => ⟨S8192x1, .f32⟩
  | 90 => ⟨S8192x8192, .f32⟩
  | 91 => ⟨S8192x8192, .f32⟩
  | 92 => ⟨S8192x8192, .f32⟩
  | 93 => ⟨S_, .f32⟩
  | 94 => ⟨S8192, .f32⟩
  | 95 => ⟨S8192x1, .f32⟩
  | 96 => ⟨S8192x8192, .f32⟩
  | 97 => ⟨S8192x8192, .f32⟩
  | 98 => ⟨S8192x128, .f32⟩
  | 99 => ⟨S1x128, .f32⟩
  | 100 => ⟨S8192x128, .f32⟩
  | 101 => ⟨S8192x128, .f32⟩
  | 102 => ⟨S8192x128, .f32⟩
  | 103 => ⟨S_, .f32⟩
  | 104 => ⟨S8192x128, .f32⟩
  | 105 => ⟨S8192x128, .i1⟩
  | 106 => ⟨S_, .f32⟩
  | 107 => ⟨S8192x128, .f32⟩
  | 108 => ⟨S8192x128, .f32⟩
  | 109 => ⟨S8192x128, .f32⟩
  | 110 => ⟨S_, .f32⟩
  | 111 => ⟨S8192, .f32⟩
  | 112 => ⟨S_, .f32⟩
  | 113 => ⟨S8192, .f32⟩
  | 114 => ⟨S8192, .f32⟩
  | 115 => ⟨S8192x1, .f32⟩
  | 116 => ⟨S8192x8192, .f32⟩
  | 117 => ⟨S8192x8192, .f32⟩
  | 118 => ⟨S8192x8192, .f32⟩
  | 119 => ⟨S_, .f32⟩
  | 120 => ⟨S8192, .f32⟩
  | 121 => ⟨S8192x1, .f32⟩
  | 122 => ⟨S8192x8192, .f32⟩
  | 123 => ⟨S8192x8192, .f32⟩
  | 124 => ⟨S8192x128, .f32⟩
  | 125 => ⟨S_, .f32⟩
  | 126 => ⟨S8192x128, .f32⟩
  | 127 => ⟨S8192x128, .i1⟩
  | _ => ⟨S8192x128, .f32⟩

abbrev hbmTy0_1 (i : Nat) : BufTy := match i % 128 with
  | 0 => ⟨S_, .f32⟩
  | 1 => ⟨S8192x128, .f32⟩
  | 2 => ⟨S8192x128, .f32⟩
  | 3 => ⟨S8192x128, .f32⟩
  | 4 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_call1_v0 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_7 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_8 : Ref sig .tc := ⟨.hbm, 84, rfl⟩
abbrev main_v44 : Ref sig .tc := ⟨.hbm, 85, rfl⟩
abbrev main_cst_9 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_10 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_11 : Ref sig .tc := ⟨.hbm, 103, rfl⟩
abbrev main_v60 : Ref sig .tc := ⟨.hbm, 104, rfl⟩
abbrev main_v61 : Ref sig .tc := ⟨.hbm, 105, rfl⟩
abbrev main_cst_12 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_13 : Ref sig .tc := ⟨.hbm, 110, rfl⟩
abbrev main_v65 : Ref sig .tc := ⟨.hbm, 111, rfl⟩
abbrev main_cst_14 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_15 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_16 : Ref sig .tc := ⟨.hbm, 125, rfl⟩
abbrev main_v77 : Ref sig .tc := ⟨.hbm, 126, rfl⟩
abbrev main_v78 : Ref sig .tc := ⟨.hbm, 127, rfl⟩
abbrev main_cst_17 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x128 : S_.BroadcastsInDim S8192x128 (![] : Fin 0 → Fin S8192x128.rank)
  dot_S8192x128_S128x256_S8192x256_1_0_0_1_n_n_wf : DotDims.WF S8192x128 S128x256 S8192x256 [1] [0] [0] [1] [] []
  dot_S8192x256_S256x8192_S8192x8192_1_0_0_1_n_n_wf : DotDims.WF S8192x256 S256x8192 S8192x8192 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.RefTerms.lean ====
/-
  The reference's arrays as functions of the arrays they are computed from, at any float instance: the
  column-normalised features, the two affine projections, the masked similarity matrix (a logistic of
  the Gram matrix of the first projection where the adjacency is positive, a large negative fill
  elsewhere), the unit shift of its diagonal, the row softmax (row maximum from -∞, exponentials of the
  differences, division by their row sum), the matrix product with the second projection, and the
  leaky rectification whose two copies are added. Each definition is the composition of the host
  operations that compute that array, in program order.
-/
import proofs.«120257_j64768106823900_2_alg».proof.Proof.Gen.ReferenceIdeal

noncomputable section

namespace Cert.ReferenceIdeal.RefTerms

open Cert.ReferenceIdeal Idealize.ShloMosaic Idealize.ShloMosaic.TcCoe
open Facts₀ Facts

variable {F : FTy → Type} [FloatOps F]

/-- Features normalised column by column: (H - mean) * rsqrt(var + eps) * γ + β, the mean and the
    (biased) variance taken over the 8192 rows. -/
def normed (H : FVec F S8192x128 .f32) (γ β : FVec F S128 .f32) : FVec F S8192x128 .f32 :=
  (addf (mulf (mulf (subf H (broadcastInDim S8192x128 ![0, 1] bcast_S1x128_S8192x128_0_1 (broadcastInDim S1x128 ![1] bcast_S128_S1x128_1 (Host.divf (Host.reduceAdd H (constant (F := F) S_ .f32 0x00000000#32) reducesTo_S8192x128_S128_d0 h_S_) (broadcastInDim S128 ![] bcast_S_S128 (constant (F := F) S_ .f32 0x46000000#32)))))) (broadcastInDim S8192x128 ![0, 1] bcast_S1x128_S8192x128_0_1 (broadcastInDim S1x128 ![1] bcast_S128_S1x128_1 (Host.rsqrt (addf (select (broadcastInDim S128 ![] bcast_S_S128 (cmpf .ogt (subf (constant (F := F) S_ .f32 0x46000000#32) (sitofp .f32 (constantI S_ 32 0#32))) (constant (F := F) S_ .f32 0x00000000#32))) (Host.divf (Host.reduceAdd (mulf (subf H (broadcastInDim S8192x128 ![0, 1] bcast_S1x128_S8192x128_0_1 (Host.divf (broadcastInDim S1x128 ![1] bcast_S128_S1x128_1 (Host.reduceAdd H (constant (F := F) S_ .f32 0x00000000#32) reducesTo_S8192x128_S128_d0 h_S_)) (broadcastInDim S1x128 ![] bcast_S_S1x128 (constant (F := F) S_ .f32 0x46000000#32))))) (subf H (broadcastInDim S8192x128 ![0, 1] bcast_S1x128_S8192x128_0_1 (Host.divf (broadcastInDim S1x128 ![1] bcast_S128_S1x128_1 (Host.reduceAdd H (constant (F := F) S_ .f32 0x00000000#32) reducesTo_S8192x128_S128_d0 h_S_)) (broadcastInDim S1x128 ![] bcast_S_S1x128 (constant (F := F) S_ .f32 0x46000000#32)))))) (constant (F := F) S_ .f32 0x00000000#32) reducesTo_S8192x128_S128_d0 h_S_) (broadcastInDim S128 ![] bcast_S_S128 (subf (constant (F := F) S_ .f32 0x46000000#32) (sitofp .f32 (constantI S_ 32 0#32))))) (broadcastInDim S128 ![] bcast_S_S128 (id (constant (F := F) S_ .f32 0x7FC00000#32)))) (broadcastInDim S128 ![] bcast_S_S128 (constant (F := F) S_ .f32 0x3727C5AC#32))))))) (broadcastInDim S8192x128 ![0, 1] bcast_S1x128_S8192x128_0_1 (broadcastInDim S1x128 ![1] bcast_S128_S1x128_1 γ))) (broadcastInDim S8192x128 ![0, 1] bcast_S1x128_S8192x128_0_1 (broadcastInDim S1x128 ![1] bcast_S128_S1x128_1 β)))

/-- The first projection, Hn · W1 + b1. -/
def proj1 (Hn : FVec F S8192x128 .f32) (W1 : FVec F S128x256 .f32) (b1 : FVec F S256 .f32) : FVec F S8192x256 .f32 :=
  (addf (Host.dotGeneral dot_S8192x128_S128x256_S8192x256_1_0_0_1_n_n none Hn W1) (broadcastInDim S8192x256 ![0, 1] bcast_S1x256_S8192x256_0_1 (broadcastInDim S1x256 ![1] bcast_S256_S1x256_1 b1)))

/-- The second projection, Hn · Wo + bo. -/
def proj2 (Hn : FVec F S8192x128 .f32) (Wo : FVec F S128x128 .f32) (bo : FVec F S128 .f32) : FVec F S8192x128 .f32 :=
  (addf (Host.dotGeneral dot_S8192x128_S128x128_S8192x128_1_0_0_1_n_n none Hn Wo) (broadcastInDim S8192x128 ![0, 1] bcast_S1x128_S8192x128_0_1 (broadcastInDim S1x128 ![1] bcast_S128_S1x128_1 bo)))

/-- The masked similarity: 1 / (1 + exp(-(Hx · Hxᵀ))) where ⌈A · c⌉ > 0, the negative fill elsewhere. -/
def masked (A : FVec F S8192x8192 .f32) (Hx : FVec F S8192x256 .f32) : FVec F S8192x8192 .f32 :=
  (select (cmpf .ogt (Host.ceil (mulf A (broadcastInDim S8192x8192 ![] bcast_S_S8192x8192 (constant (F := F) S_ .f32 0x3727C5AC#32)))) (broadcastInDim S8192x8192 ![] bcast_S_S8192x8192 (constant (F := F) S_ .f32 0x00000000#32))) (Host.divf (broadcastInDim S8192x8192 ![] bcast_S_S8192x8192 (constant (F := F) S_ .f32 0x3F800000#32)) (addf (broadcastInDim S8192x8192 ![] bcast_S_S8192x8192 (constant (F := F) S_ .f32 0x3F800000#32)) (Host.exp (Host.negf (Host.dotGeneral dot_S8192x256_S256x8192_S8192x8192_1_0_0_1_n_n none Hx (transpose S256x8192 [1, 0] Hx transposes_S8192x256_S256x8192_1_0)))))) (broadcastInDim S8192x8192 ![] bcast_S_S8192x8192 (constant (F := F) S_ .f32 0xD9FFCB9E#32)))

/-- One added on the diagonal. -/
def diagShift (X : FVec F S8192x8192 .f32) : FVec F S8192x8192 .f32 :=
  (addf X (uitofp .f32 (cmpi .eq (addi (iotaInDim S8192x8192 32 0) (broadcastInDim S8192x8192 ![] bcast_S_S8192x8192 (constantI S_ 32 0#32))) (iotaInDim S8192x8192 32 1))))

/-- Row maxima, from -∞. -/
def rowMax (X : FVec F S8192x8192 .f32) : FVec F S8192 .f32 :=
  (maximumf (broadcastInDim S8192 ![] bcast_S_S8192 (constant (F := F) S_ .f32 0xFF800000#32)) (Host.reduce FloatOps.maximumf X (constant (F := F) S_ .f32 0xFF800000#32) reducesTo_S8192x8192_S8192_d1 h_S_))

/-- exp(X - rowMax X), the maximum broadcast along its row. -/
def expShift (X : FVec F S8192x8192 .f32) : FVec F S8192x8192 .f32 :=
  (Host.exp (subf X (broadcastInDim S8192x8192 ![0, 1] bcast_S8192x1_S8192x8192_0_1 (broadcastInDim S8192x1 ![0] bcast_S8192_S8192x1_0 (rowMax X)))))

/-- The row softmax: expShift X divided by its row sums. -/
def softmax (X : FVec F S8192x8192 .f32) : FVec F S8192x8192 .f32 :=
  (Host.divf (expShift X) (broadcastInDim S8192x8192 ![0, 1] bcast_S8192x1_S8192x8192_0_1 (broadcastInDim S8192x1 ![0] bcast_S8192_S8192x1_0 (Host.reduceAdd (expShift X) (constant (F := F) S_ .f32 0x00000000#32) reducesTo_S8192x8192_S8192_d1 h_S_))))

/-- P · HW. -/
def propagate (P : FVec F S8192x8192 .f32) (HW : FVec F S8192x128 .f32) : FVec F S8192x128 .f32 :=
  (Host.dotGeneral dot_S8192x8192_S8192x128_S8192x128_1_0_0_1_n_n none P HW)

/-- Y where Y ≥ 0, slope · Y elsewhere. -/
def leaky (Y : FVec F S8192x128 .f32) : FVec F S8192x128 .f32 :=
  (select (cmpf .oge Y (broadcastInDim S8192x128 ![] bcast_S_S8192x128 (constant (F := F) S_ .f32 0x00000000#32))) Y (mulf (broadcastInDim S8192x128 ![] bcast_S_S8192x128 (constant (F := F) S_ .f32 0x3C23D70A#32)) Y))

/-- The second result: the softmax of the diagonally shifted masked similarity. -/
def resultSoft (A : FVec F S8192x8192 .f32) (Hx : FVec F S8192x256 .f32) : FVec F S8192x8192 .f32 :=
  softmax (diagShift (masked A Hx))

/-- The first result: the two propagated, rectified copies added. -/
def resultOut (A : FVec F S8192x8192 .f32) (Hx : FVec F S8192x256 .f32) (HW : FVec F S8192x128 .f32) : FVec F S8192x128 .f32 :=
  addf (leaky (propagate (resultSoft A Hx) HW)) (leaky (propagate (softmax (masked A Hx)) HW))

end Cert.ReferenceIdeal.RefTerms

end
-- ==== Proof.RefRun.lean ====
/-
  The reference program's run read back: its @main is one straight line of host operations (the
  outlined variance and select functions unfolded where they are called), so every weakly fair
  execution terminates with each buffer at the operations' fold over the launch contents; at the two
  result buffers that fold is the composition of RefTerms' functions of the argument arrays, and the
  argument arrays are untouched.
-/
import proofs.«120257_j64768106823900_2_alg».proof.Proof.Gen.ReferenceIdeal
import proofs.«120257_j64768106823900_2_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- @main's 125 operations, in order, the called functions' operations listed at their calls. -/
abbrev ops : List (HloOp τ sig (Elt F)) :=
  [
    nullary main_cst (constant S_ .f32 0x00000000#32),
    binary main_arg0 main_cst main_v0 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    nullary main_cst_0 (constant S_ .f32 0x46000000#32),
    unary main_cst_0 main_v1 (broadcastInDim S128 ![] bcast_S_S128 : (⟨S_, .f32⟩ : BufTy).Contents (Elt F) → (⟨S128, .f32⟩ : BufTy).Contents (Elt F)),
    binary main_v0 main_v1 main_v2 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S8192x128_S128_d0 h_S_),
    TRef.unary main_call0.v0 main_call0.v1 (broadcastInDim S1x128 ![1] bcast_S128_S1x128_1),
    TRef.nullary main_call0.cst_0 (constant S_ .f32 0x46000000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S8192x128 ![0, 1] bcast_S1x128_S8192x128_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v2 main_v4 (broadcastInDim S1x128 ![1] bcast_S128_S1x128_1 : (⟨S128, .f32⟩ : BufTy).Contents (Elt F) → (⟨S1x128, .f32⟩ : BufTy).Contents (Elt F)),
    unary main_v4 main_v5 (broadcastInDim S8192x128 ![0, 1] bcast_S1x128_S8192x128_0_1 : (⟨S1x128, .f32⟩ : BufTy).Contents (Elt F) → (⟨S8192x128, .f32⟩ : BufTy).Contents (Elt F)),
    binary main_arg0 main_v5 main_v6 (subf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x3727C5AC#32),
    unary main_cst_1 main_v7 (broadcastInDim S128 ![] bcast_S_S128 : (⟨S_, .f32⟩ : BufTy).Contents (Elt F) → (⟨S128, .f32⟩ : BufTy).Contents (Elt F)),
    binary main_v3 main_v7 main_v8 (addf : (⟨S128, .f32⟩ : BufTy).Contents (Elt F) → (⟨S128, .f32⟩ : BufTy).Contents (Elt F) → (⟨S128, .f32⟩ : BufTy).Contents (Elt F)),
    unary main_v8 main_v9 (Host.rsqrt : (⟨S128, .f32⟩ : BufTy).Contents (Elt F) → (⟨S128, .f32⟩ : BufTy).Contents (Elt F)),
    unary main_v9 main_v10 (broadcastInDim S1x128 ![1] bcast_S128_S1x128_1 : (⟨S128, .f32⟩ : BufTy).Contents (Elt F) → (⟨S1x128, .f32⟩ : BufTy).Contents (Elt F)),
    unary main_v10 main_v11 (broadcastInDim S8192x128 ![0, 1] bcast_S1x128_S8192x128_0_1 : (⟨S1x128, .f32⟩ : BufTy).Contents (Elt F) → (⟨S8192x128, .f32⟩ : BufTy).Contents (Elt F)),
    binary main_v6 main_v11 main_v12 (mulf : (⟨S8192x128, .f32⟩ : BufTy).Contents (Elt F) → (⟨S8192x128, .f32⟩ : BufTy).Contents (Elt F) → (⟨S8192x128, .f32⟩ : BufTy).Contents (Elt F)),
    unary main_arg2 main_v13 (broadcastInDim S1x128 ![1] bcast_S128_S1x128_1 : (⟨S128, .f32⟩ : BufTy).Contents (Elt F) → (⟨S1x128, .f32⟩ : BufTy).Contents (Elt F)),
    unary main_v13 main_v14 (broadcastInDim S8192x128 ![0, 1] bcast_S1x128_S8192x128_0_1 : (⟨S1x128, .f32⟩ : BufTy).Contents (Elt F) → (⟨S8192x128, .f32⟩ : BufTy).Contents (Elt F)),
    binary main_v12 main_v14 main_v15 (mulf : (⟨S8192x128, .f32⟩ : BufTy).Contents (Elt F) → (⟨S8192x128, .f32⟩ : BufTy).Contents (Elt F) → (⟨S8192x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S8192x128 ![0, 1] bcast_S1x128_S8192x128_0_1 : (⟨S1x128, .f32⟩ : BufTy).Contents (Elt F) → (⟨S8192x128, .f32⟩ : BufTy).Contents (Elt F)),
    binary main_v15 main_v17 main_v18 (addf : (⟨S8192x128, .f32⟩ : BufTy).Contents (Elt F) → (⟨S8192x128, .f32⟩ : BufTy).Contents (Elt F) → (⟨S8192x128, .f32⟩ : BufTy).Contents (Elt F)),
    binary main_v18 main_arg4 main_v19 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg5 main_v20 (broadcastInDim S1x256 ![1] bcast_S256_S1x256_1 : (⟨S256, .f32⟩ : BufTy).Contents (Elt F) → (⟨S1x256, .f32⟩ : BufTy).Contents (Elt F)),
    unary main_v20 main_v21 (broadcastInDim S8192x256 ![0, 1] bcast_S1x256_S8192x256_0_1 : (⟨S1x256, .f32⟩ : BufTy).Contents (Elt F) → (⟨S8192x256, .f32⟩ : BufTy).Contents (Elt F)),
    binary main_v19 main_v21 main_v22 (addf : (⟨S8192x256, .f32⟩ : BufTy).Contents (Elt F) → (⟨S8192x256, .f32⟩ : BufTy).Contents (Elt F) → (⟨S8192x256, .f32⟩ : BufTy).Contents (Elt F)),
    unary main_v22 main_v23 ((transpose S256x8192 [1, 0] · transposes_S8192x256_S256x8192_1_0) : (⟨S8192x256, .f32⟩ : BufTy).Contents (Elt F) → (⟨S256x8192, .f32⟩ : BufTy).Contents (Elt F)),
    binary main_v22 main_v23 main_v24 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_v24 main_v25 (Host.negf : (⟨S8192x8192, .f32⟩ : BufTy).Contents (Elt F) → (⟨S8192x8192, .f32⟩ : BufTy).Contents (Elt F)),
    unary main_v25 main_v26 (Host.exp : (⟨S8192x8192, .f32⟩ : BufTy).Contents (Elt F) → (⟨S8192x8192, .f32⟩ : BufTy).Contents (Elt F)),
    nullary main_cst_2 (constant S_ .f32 0x3F800000#32),
    unary main_cst_2 main_v27 (broadcastInDim S8192x8192 ![] bcast_S_S8192x8192 : (⟨S_, .f32⟩ : BufTy).Contents (Elt F) → (⟨S8192x8192, .f32⟩ : BufTy).Contents (Elt F)),
    binary main_v27 main_v26 main_v28 (addf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x3F800000#32),
    unary main_cst_3 main_v29 (broadcastInDim S8192x8192 ![] bcast_S_S8192x8192 : (⟨S_, .f32⟩ : BufTy).Contents (Elt F) → (⟨S8192x8192, .f32⟩ : BufTy).Contents (Elt F)),
    binary main_v29 main_v28 main_v30 (Host.divf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x3727C5AC#32),
    unary main_cst_4 main_v31 (broadcastInDim S8192x8192 ![] bcast_S_S8192x8192 : (⟨S_, .f32⟩ : BufTy).Contents (Elt F) → (⟨S8192x8192, .f32⟩ : BufTy).Contents (Elt F)),
    binary main_arg1 main_v31 main_v32 (mulf : (⟨S8192x8192, .f32⟩ : BufTy).Contents (Elt F) → (⟨S8192x8192, .f32⟩ : BufTy).Contents (Elt F) → (⟨S8192x8192, .f32⟩ : BufTy).Contents (Elt F)),
    unary main_v32 main_v33 (Host.ceil : (⟨S8192x8192, .f32⟩ : BufTy).Contents (Elt F) → (⟨S8192x8192, .f32⟩ : BufTy).Contents (Elt F)),
    nullary main_cst_5 (constant S_ .f32 0x00000000#32),
    unary main_cst_5 main_v34 (broadcastInDim S8192x8192 ![] bcast_S_S8192x8192 : (⟨S_, .f32⟩ : BufTy).Contents (Elt F) → (⟨S8192x8192, .f32⟩ : BufTy).Contents (Elt F)),
    binary main_v33 main_v34 main_v35 (cmpf .ogt : (⟨S8192x8192, .f32⟩ : BufTy).Contents (Elt F) → (⟨S8192x8192, .f32⟩ : BufTy).Contents (Elt F) → (⟨S8192x8192, .i1⟩ : BufTy).Contents (Elt F)),
    nullary main_cst_6 (constant S_ .f32 0xD9FFCB9E#32),
    TRef.unary (.of main_cst_6 : TRef sig ⟨S_, .f32⟩) main_call1.v0 (broadcastInDim S8192x8192 ![] bcast_S_S8192x8192),
    TRef.ternary (.of main_v35) (.of main_v30) main_call1.v0 main_call1.v1 select,
    nullary main_v37 (iotaInDim S8192x8192 32 0),
    nullary main_v38 (iotaInDim S8192x8192 32 1),
    nullary main_c_7 (constantI S_ 32 0#32),
    unary main_c_7 main_v39 (broadcastInDim S8192x8192 ![] bcast_S_S8192x8192 : (⟨S_, .i32⟩ : BufTy).Contents (Elt F) → (⟨S8192x8192, .i32⟩ : BufTy).Contents (Elt F)),
    binary main_v37 main_v39 main_v40 (addi : (⟨S8192x8192, .i32⟩ : BufTy).Contents (Elt F) → (⟨S8192x8192, .i32⟩ : BufTy).Contents (Elt F) → (⟨S8192x8192, .i32⟩ : BufTy).Contents (Elt F)),
    binary main_v40 main_v38 main_v41 (cmpi .eq : (⟨S8192x8192, .i32⟩ : BufTy).Contents (Elt F) → (⟨S8192x8192, .i32⟩ : BufTy).Contents (Elt F) → (⟨S8192x8192, .i1⟩ : BufTy).Contents (Elt F)),
    unary main_v41 main_v42 (uitofp .f32 : (⟨S8192x8192, .i1⟩ : BufTy).Contents (Elt F) → (⟨S8192x8192, .f32⟩ : BufTy).Contents (Elt F)),
    binary main_v36 main_v42 main_v43 (addf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0xFF800000#32),
    binary main_v43 main_cst_8 main_v44 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0xFF800000#32),
    unary main_cst_9 main_v45 (broadcastInDim S8192 ![] bcast_S_S8192 : (⟨S_, .f32⟩ : BufTy).Contents (Elt F) → (⟨S8192, .f32⟩ : BufTy).Contents (Elt F)),
    binary main_v45 main_v44 main_v46 (maximumf : (⟨S8192, .f32⟩ : BufTy).Contents (Elt F) → (⟨S8192, .f32⟩ : BufTy).Contents (Elt F) → (⟨S8192, .f32⟩ : BufTy).Contents (Elt F)),
    unary main_v46 main_v47 (broadcastInDim S8192x1 ![0] bcast_S8192_S8192x1_0 : (⟨S8192, .f32⟩ : BufTy).Contents (Elt F) → (⟨S8192x1, .f32⟩ : BufTy).Contents (Elt F)),
    unary main_v47 main_v48 (broadcastInDim S8192x8192 ![0, 1] bcast_S8192x1_S8192x8192_0_1 : (⟨S8192x1, .f32⟩ : BufTy).Contents (Elt F) → (⟨S8192x8192, .f32⟩ : BufTy).Contents (Elt F)),
    binary main_v43 main_v48 main_v49 (subf : (⟨S8192x8192, .f32⟩ : BufTy).Contents (Elt F) → (⟨S8192x8192, .f32⟩ : BufTy).Contents (Elt F) → (⟨S8192x8192, .f32⟩ : BufTy).Contents (Elt F)),
    unary main_v49 main_v50 (Host.exp : (⟨S8192x8192, .f32⟩ : BufTy).Contents (Elt F) → (⟨S8192x8192, .f32⟩ : BufTy).Contents (Elt F)),
    nullary main_cst_10 (constant S_ .f32 0x00000000#32),
    binary main_v50 main_cst_10 main_v51 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v51 main_v52 (broadcastInDim S8192x1 ![0] bcast_S8192_S8192x1_0 : (⟨S8192, .f32⟩ : BufTy).Contents (Elt F) → (⟨S8192x1, .f32⟩ : BufTy).Contents (Elt F)),
    unary main_v52 main_v53 (broadcastInDim S8192x8192 ![0, 1] bcast_S8192x1_S8192x8192_0_1 : (⟨S8192x1, .f32⟩ : BufTy).Contents (Elt F) → (⟨S8192x8192, .f32⟩ : BufTy).Contents (Elt F)),
    binary main_v50 main_v53 main_v54 (Host.divf : (⟨S8192x8192, .f32⟩ : BufTy).Contents (Elt F) → (⟨S8192x8192, .f32⟩ : BufTy).Contents (Elt F) → (⟨S8192x8192, .f32⟩ : BufTy).Contents (Elt F)),
    binary main_v18 main_arg6 main_v55 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S8192x128 ![0, 1] bcast_S1x128_S8192x128_0_1 : (⟨S1x128, .f32⟩ : BufTy).Contents (Elt F) → (⟨S8192x128, .f32⟩ : BufTy).Contents (Elt F)),
    binary main_v55 main_v57 main_v58 (addf : (⟨S8192x128, .f32⟩ : BufTy).Contents (Elt F) → (⟨S8192x128, .f32⟩ : BufTy).Contents (Elt F) → (⟨S8192x128, .f32⟩ : BufTy).Contents (Elt F)),
    binary main_v54 main_v58 main_v59 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    nullary main_cst_11 (constant S_ .f32 0x00000000#32),
    unary main_cst_11 main_v60 (broadcastInDim S8192x128 ![] bcast_S_S8192x128 : (⟨S_, .f32⟩ : BufTy).Contents (Elt F) → (⟨S8192x128, .f32⟩ : BufTy).Contents (Elt F)),
    binary main_v59 main_v60 main_v61 (cmpf .oge : (⟨S8192x128, .f32⟩ : BufTy).Contents (Elt F) → (⟨S8192x128, .f32⟩ : BufTy).Contents (Elt F) → (⟨S8192x128, .i1⟩ : BufTy).Contents (Elt F)),
    nullary main_cst_12 (constant S_ .f32 0x3C23D70A#32),
    unary main_cst_12 main_v62 (broadcastInDim S8192x128 ![] bcast_S_S8192x128 : (⟨S_, .f32⟩ : BufTy).Contents (Elt F) → (⟨S8192x128, .f32⟩ : BufTy).Contents (Elt F)),
    binary main_v62 main_v59 main_v63 (mulf : (⟨S8192x128, .f32⟩ : BufTy).Contents (Elt F) → (⟨S8192x128, .f32⟩ : BufTy).Contents (Elt F) → (⟨S8192x128, .f32⟩ : BufTy).Contents (Elt F)),
    TRef.ternary (.of main_v61) (.of main_v59) (.of main_v63) main_call2.v0 select,
    nullary main_cst_13 (constant S_ .f32 0xFF800000#32),
    binary main_v36 main_cst_13 main_v65 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_14 (constant S_ .f32 0xFF800000#32),
    unary main_cst_14 main_v66 (broadcastInDim S8192 ![] bcast_S_S8192 : (⟨S_, .f32⟩ : BufTy).Contents (Elt F) → (⟨S8192, .f32⟩ : BufTy).Contents (Elt F)),
    binary main_v66 main_v65 main_v67 (maximumf : (⟨S8192, .f32⟩ : BufTy).Contents (Elt F) → (⟨S8192, .f32⟩ : BufTy).Contents (Elt F) → (⟨S8192, .f32⟩ : BufTy).Contents (Elt F)),
    unary main_v67 main_v68 (broadcastInDim S8192x1 ![0] bcast_S8192_S8192x1_0 : (⟨S8192, .f32⟩ : BufTy).Contents (Elt F) → (⟨S8192x1, .f32⟩ : BufTy).Contents (Elt F)),
    unary main_v68 main_v69 (broadcastInDim S8192x8192 ![0, 1] bcast_S8192x1_S8192x8192_0_1 : (⟨S8192x1, .f32⟩ : BufTy).Contents (Elt F) → (⟨S8192x8192, .f32⟩ : BufTy).Contents (Elt F)),
    binary main_v36 main_v69 main_v70 (subf : (⟨S8192x8192, .f32⟩ : BufTy).Contents (Elt F) → (⟨S8192x8192, .f32⟩ : BufTy).Contents (Elt F) → (⟨S8192x8192, .f32⟩ : BufTy).Contents (Elt F)),
    unary main_v70 main_v71 (Host.exp : (⟨S8192x8192, .f32⟩ : BufTy).Contents (Elt F) → (⟨S8192x8192, .f32⟩ : BufTy).Contents (Elt F)),
    nullary main_cst_15 (constant S_ .f32 0x00000000#32),
    binary main_v71 main_cst_15 main_v72 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v72 main_v73 (broadcastInDim S8192x1 ![0] bcast_S8192_S8192x1_0 : (⟨S8192, .f32⟩ : BufTy).Contents (Elt F) → (⟨S8192x1, .f32⟩ : BufTy).Contents (Elt F)),
    unary main_v73 main_v74 (broadcastInDim S8192x8192 ![0, 1] bcast_S8192x1_S8192x8192_0_1 : (⟨S8192x1, .f32⟩ : BufTy).Contents (Elt F) → (⟨S8192x8192, .f32⟩ : BufTy).Contents (Elt F)),
    binary main_v71 main_v74 main_v75 (Host.divf : (⟨S8192x8192, .f32⟩ : BufTy).Contents (Elt F) → (⟨S8192x8192, .f32⟩ : BufTy).Contents (Elt F) → (⟨S8192x8192, .f32⟩ : BufTy).Contents (Elt F)),
    binary main_v75 main_v58 main_v76 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    nullary main_cst_16 (constant S_ .f32 0x00000000#32),
    unary main_cst_16 main_v77 (broadcastInDim S8192x128 ![] bcast_S_S8192x128 : (⟨S_, .f32⟩ : BufTy).Contents (Elt F) → (⟨S8192x128, .f32⟩ : BufTy).Contents (Elt F)),
    binary main_v76 main_v77 main_v78 (cmpf .oge : (⟨S8192x128, .f32⟩ : BufTy).Contents (Elt F) → (⟨S8192x128, .f32⟩ : BufTy).Contents (Elt F) → (⟨S8192x128, .i1⟩ : BufTy).Contents (Elt F)),
    nullary main_cst_17 (constant S_ .f32 0x3C23D70A#32),
    unary main_cst_17 main_v79 (broadcastInDim S8192x128 ![] bcast_S_S8192x128 : (⟨S_, .f32⟩ : BufTy).Contents (Elt F) → (⟨S8192x128, .f32⟩ : BufTy).Contents (Elt F)),
    binary main_v79 main_v76 main_v80 (mulf : (⟨S8192x128, .f32⟩ : BufTy).Contents (Elt F) → (⟨S8192x128, .f32⟩ : BufTy).Contents (Elt F) → (⟨S8192x128, .f32⟩ : BufTy).Contents (Elt F)),
    TRef.ternary (.of main_v78) (.of main_v76) (.of main_v80) main_call3.v0 select,
    binary main_v64 main_v81 main_v82 (addf : (⟨S8192x128, .f32⟩ : BufTy).Contents (Elt F) → (⟨S8192x128, .f32⟩ : BufTy).Contents (Elt F) → (⟨S8192x128, .f32⟩ : BufTy).Contents (Elt F)) ]

set_option maxRecDepth 4096 in
theorem main_eq (c : Dev nD) : main (F := F) c = seq ops := by
  simp only [main, main_part0, main_part1, fn_var.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., ternary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., binary_bufs_sub ..⟩

/-! ## The fold at the result buffers

Over any contents `V` of the buffers at launch. Unrolling the fold replaces each buffer read by the function of the
operation that wrote it, down to the arguments; what is left on both sides is one and the same composition of host
operations, so the equation holds by computation. The reductions, the transposition, the broadcasts and the index
arrays are kept folded meanwhile: the equation never looks inside them, and their bodies range over all
8192 × 8192 positions. (The matrix product is a primitive of the float values and has no body to open.) -/

attribute [local irreducible] Host.reduce Host.reduceAdd transpose broadcastInDim iotaInDim in
set_option maxRecDepth 16384 in
set_option maxHeartbeats 1600000 in
/-- The second result buffer holds the row softmax of the diagonally shifted masked similarity of the first
    projection of the normalised features. -/
theorem soft_eq (V : Valuation τ sig (Elt F)) :
    after ops V (main_v54 : DevRef τ sig) = RefTerms.resultSoft (V (main_arg1 : DevRef τ sig)) (RefTerms.proj1 (RefTerms.normed (V (main_arg0 : DevRef τ sig)) (V (main_arg2 : DevRef τ sig)) (V (main_arg3 : DevRef τ sig))) (V (main_arg4 : DevRef τ sig)) (V (main_arg5 : DevRef τ sig))) := by
  after_results_simp
  rfl

attribute [local irreducible] Host.reduce Host.reduceAdd transpose broadcastInDim iotaInDim in
set_option maxRecDepth 16384 in
set_option maxHeartbeats 3200000 in
/-- The first result buffer holds the sum of the two rectified propagations of the second projection, one through
    the softmax of the shifted masked similarity and one through the softmax of the unshifted one. -/
theorem out_eq (V : Valuation τ sig (Elt F)) :
    after ops V (main_v82 : DevRef τ sig) = RefTerms.resultOut (V (main_arg1 : DevRef τ sig)) (RefTerms.proj1 (RefTerms.normed (V (main_arg0 : DevRef τ sig)) (V (main_arg2 : DevRef τ sig)) (V (main_arg3 : DevRef τ sig))) (V (main_arg4 : DevRef τ sig)) (V (main_arg5 : DevRef τ sig))) (RefTerms.proj2 (RefTerms.normed (V (main_arg0 : DevRef τ sig)) (V (main_arg2 : DevRef τ sig)) (V (main_arg3 : DevRef τ sig))) (V (main_arg6 : DevRef τ sig)) (V (main_arg7 : DevRef τ sig))) := by
  after_results_simp
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- Every weakly fair execution of the reference terminates; the first result is the sum of the two
    rectified propagations, the second the softmax of the shifted masked similarity, both as
    functions of the argument arrays; the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = RefTerms.resultOut (m ((c.tc : Thread nD τ).loc main_arg1)) (RefTerms.proj1 (RefTerms.normed (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (RefTerms.proj2 (RefTerms.normed (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7)))
      ∧ r.2.mem ((c.tc : Thread nD τ).loc main_v54) = RefTerms.resultSoft (m ((c.tc : Thread nD τ).loc main_arg1)) (RefTerms.proj1 (RefTerms.normed (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (out_eq _), (h c main_v54).trans (soft_eq _),
      (h c main_arg0).trans (arg0_eq _), (h c main_arg1).trans (arg1_eq _),
      (h c main_arg2).trans (arg2_eq _), (h c main_arg3).trans (arg3_eq _),
      (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.KProducts.lean ====
/-
  The kernel body's three matrix products read at an index, at the exact extended reals: a product
  against a zero accumulator is the plain sum over the contracted coordinate of the operands'
  products, the contracted coordinate being the second of the left operand and the second (Gram
  products) or the first (propagation) of the right one.
-/
import proofs.«120257_j64768106823900_2_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

/-- Rows of a 128 × 256 block against rows of the 8192 × 256 array: entry (r, j) is the sum over k of lhs (r, k) · rhs (j, k). -/
theorem gram_full (lhs : FVec Ideal S128x256 .f32) (rhs : FVec Ideal S8192x256 .f32) (r : Fin 128) (j : Fin 8192) :
    matmul dot_S128x256_S8192x256_S128x8192_1_1_0_0_n_n (some .fp32) lhs rhs (constant S128x8192 .f32 0x00000000#32) (ix2 r j)
      = ∑ k : Fin 256, lhs (ix2 r k) * rhs (ix2 j k) := by
  refine (Ideal.matmul_constant_zero_apply _ _ lhs rhs (ix2 r j)).trans ?_
  rw [← Equiv.sum_comp (contrEquiv1 dot_S128x256_S8192x256_S128x8192_1_1_0_0_n_n 256 rfl rfl).symm]
  refine Finset.sum_congr rfl fun k _ => ?_
  have hl : dot_S128x256_S8192x256_S128x8192_1_1_0_0_n_n.lhsIdx (ix2 r j) ((contrEquiv1 dot_S128x256_S8192x256_S128x8192_1_1_0_0_n_n 256 rfl rfl).symm k) = ix2 r k := by
    funext a; apply Fin.ext
    match a with
    | ⟨0, _⟩ => rfl
    | ⟨1, _⟩ => exact (DotDims.lhsIdx_val_of_single _ rfl _ _).trans (contrEquiv1_symm_val _ 256 rfl rfl k)
  have hr : dot_S128x256_S8192x256_S128x8192_1_1_0_0_n_n.rhsIdx (ix2 r j) ((contrEquiv1 dot_S128x256_S8192x256_S128x8192_1_1_0_0_n_n 256 rfl rfl).symm k) = ix2 j k := by
    funext a; apply Fin.ext
    match a with
    | ⟨0, _⟩ => rfl
    | ⟨1, _⟩ => exact (DotDims.rhsIdx_val_of_single _ rfl _ _).trans (contrEquiv1_symm_val _ 256 rfl rfl k)
  rw [hl, hr]

/-- Rows of the block against its own rows: entry (r, c) is the sum over k of lhs (r, k) · rhs (c, k). -/
theorem gram_diag (lhs : FVec Ideal S128x256 .f32) (rhs : FVec Ideal S128x256 .f32) (r : Fin 128) (j : Fin 128) :
    matmul dot_S128x256_S128x256_S128x128_1_1_0_0_n_n (some .fp32) lhs rhs (constant S128x128 .f32 0x00000000#32) (ix2 r j)
      = ∑ k : Fin 256, lhs (ix2 r k) * rhs (ix2 j k) := by
  refine (Ideal.matmul_constant_zero_apply _ _ lhs rhs (ix2 r j)).trans ?_
  rw [← Equiv.sum_comp (contrEquiv1 dot_S128x256_S128x256_S128x128_1_1_0_0_n_n 256 rfl rfl).symm]
  refine Finset.sum_congr rfl fun k _ => ?_
  have hl : dot_S128x256_S128x256_S128x128_1_1_0_0_n_n.lhsIdx (ix2 r j) ((contrEquiv1 dot_S128x256_S128x256_S128x128_1_1_0_0_n_n 256 rfl rfl).symm k) = ix2 r k := by
    funext a; apply Fin.ext
    match a with
    | ⟨0, _⟩ => rfl
    | ⟨1, _⟩ => exact (DotDims.lhsIdx_val_of_single _ rfl _ _).trans (contrEquiv1_symm_val _ 256 rfl rfl k)
  have hr : dot_S128x256_S128x256_S128x128_1_1_0_0_n_n.rhsIdx (ix2 r j) ((contrEquiv1 dot_S128x256_S128x256_S128x128_1_1_0_0_n_n 256 rfl rfl).symm k) = ix2 j k := by
    funext a; apply Fin.ext
    match a with
    | ⟨0, _⟩ => rfl
    | ⟨1, _⟩ => exact (DotDims.rhsIdx_val_of_single _ rfl _ _).trans (contrEquiv1_symm_val _ 256 rfl rfl k)
  rw [hl, hr]

/-- A 128 × 8192 block of weights against the 8192 × 128 array: entry (r, o) is the sum over j of lhs (r, j) · rhs (j, o). -/
theorem propagate (lhs : FVec Ideal S128x8192 .f32) (rhs : FVec Ideal S8192x128 .f32) (r : Fin 128) (j : Fin 128) :
    matmul dot_S128x8192_S8192x128_S128x128_1_0_0_1_n_n (some .fp32) lhs rhs (constant S128x128 .f32 0x00000000#32) (ix2 r j)
      = ∑ k : Fin 8192, lhs (ix2 r k) * rhs (ix2 k j) := by
  refine (Ideal.matmul_constant_zero_apply _ _ lhs rhs (ix2 r j)).trans ?_
  rw [← Equiv.sum_comp (contrEquiv1 dot_S128x8192_S8192x128_S128x128_1_0_0_1_n_n 8192 rfl rfl).symm]
  refine Finset.sum_congr rfl fun k _ => ?_
  have hl : dot_S128x8192_S8192x128_S128x128_1_0_0_1_n_n.lhsIdx (ix2 r j) ((contrEquiv1 dot_S128x8192_S8192x128_S128x128_1_0_0_1_n_n 8192 rfl rfl).symm k) = ix2 r k := by
    funext a; apply Fin.ext
    match a with
    | ⟨0, _⟩ => rfl
    | ⟨1, _⟩ => exact (DotDims.lhsIdx_val_of_single _ rfl _ _).trans (contrEquiv1_symm_val _ 8192 rfl rfl k)
  have hr : dot_S128x8192_S8192x128_S128x128_1_0_0_1_n_n.rhsIdx (ix2 r j) ((contrEquiv1 dot_S128x8192_S8192x128_S128x128_1_0_0_1_n_n 8192 rfl rfl).symm k) = ix2 k j := by
    funext a; apply Fin.ext
    match a with
    | ⟨0, _⟩ => exact (DotDims.rhsIdx_val_of_single _ rfl _ _).trans (contrEquiv1_symm_val _ 8192 rfl rfl k)
    | ⟨1, _⟩ => rfl
  rw [hl, hr]

end Cert.KernelIdeal.Products

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KBody.lean ====
/-
  The kernel body read entry by entry at the exact extended reals. For one block of 128 rows: the
  masked similarity of block row r and column j (a logistic of the Gram entry where the adjacency
  block is positive, the negative fill elsewhere), its row maximum from -∞, the exponentials of the
  differences, their row sum and the first softmax; the diagonal entry of the row picked out of the
  128 × 128 diagonal block as the one non-zero term of a sum; and the second softmax's numerator and
  denominator obtained from the first by the shift of the maximum.
-/
import proofs.«120257_j64768106823900_2_alg».proof.Proof.Gen.KernelIdeal.Skeleton
import proofs.«120257_j64768106823900_2_alg».proof.Proof.KProducts
import proofs.«120257_j64768106823900_2_alg».proof.Proof.LibKeepdims
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

variable (v2 : Vec Ideal S8192x256 .f32) (v5 : Vec Ideal S128x256 .f32) (v9 : Vec Ideal S128x8192 .f32)
  (v26 : Vec Ideal S128x128 .f32)

/-- The masked similarity of block row r and column j. -/
theorem sim_apply (r : Fin 128) (j : Fin 8192) :
    k0_pay4 (F := Ideal) v2 v5 v9 (ix2 r j)
      = if Ideal.cmp .ogt (v9 (ix2 r j)) (Ideal.ofBits .f32 0x00000000#32) = 1#1
        then Ideal.logistic (∑ k : Fin 256, v5 (ix2 r k) * v2 (ix2 j k)) else Ideal.ofBits .f32 0xD9FFCB9E#32 := by
  unfold k0_pay4 k0_pay3
  simp only [shapeCast_self]
  exact congrArg (fun s => if Ideal.cmp .ogt (v9 (ix2 r j)) (Ideal.ofBits .f32 0x00000000#32) = 1#1
    then Ideal.logistic s else Ideal.ofBits .f32 0xD9FFCB9E#32) (Products.gram_full v5 v2 r j)

/-- Column k inserted into the row index r of the 128 × 8192 block is the entry (r, k). -/
theorem lift_row (r : Fin 128) (k : Fin 8192) : reduces_S128x8192_S128.lift (ix1 r) k = ix2 r k := by
  funext a; apply Fin.ext
  match a with
  | ⟨0, _⟩ => rfl
  | ⟨1, _⟩ => rfl

/-- Column c inserted into the row index r of the 128 × 128 block is the entry (r, c). -/
theorem lift_blk (r : Fin 128) (c : Fin 128) : reduces_S128x128_S128.lift (ix1 r) c = ix2 r c := by
  funext a; apply Fin.ext
  match a with
  | ⟨0, _⟩ => rfl
  | ⟨1, _⟩ => rfl

/-- A maximum along the rows of a 128 × 8192 array, from -∞: the fold of max over the row's entries. -/
theorem rowmax_read (src : FVec Ideal S128x8192 .f32) (r : Fin 128) :
    multiReduction .maximumf [1] S128 src 0xFF800000#32 reduces_S128x8192_S128 (.inl rfl) rfl (ix1 r)
      = Finset.univ.fold max (Ideal.ofBits .f32 0xFF800000#32) (fun j : Fin 8192 => src (ix2 r j)) := by
  have h := Ideal.multiReduction_maximumf_single (a := (1 : Fin 2)) src 0xFF800000#32 reduces_S128x8192_S128 (.inl rfl) rfl (ix1 r)
  rw [h]
  have e : (src ∘ reduces_S128x8192_S128.lift (ix1 r)) = fun j : Fin 8192 => src (ix2 r j) :=
    funext fun k => congrArg src (lift_row r k)
  rw [e]
  rfl

/-- A sum along the rows of a 128 × 8192 array. -/
theorem rowsum_read (src : FVec Ideal S128x8192 .f32) (r : Fin 128) :
    multiReduction .add [1] S128 src 0x00000000#32 reduces_S128x8192_S128 (.inl rfl) rfl (ix1 r)
      = ∑ j : Fin 8192, src (ix2 r j) := by
  have h := Ideal.multiReduction_add_single (a := (1 : Fin 2)) src 0x00000000#32 reduces_S128x8192_S128 (.inl rfl) rfl (ix1 r)
  rw [h]
  exact Finset.sum_congr rfl fun k _ => congrArg src (lift_row r k)

/-- A sum along the rows of a 128 × 128 array. -/
theorem blksum_read (src : FVec Ideal S128x128 .f32) (r : Fin 128) :
    multiReduction .add [1] S128 src 0x00000000#32 reduces_S128x128_S128 (.inl rfl) rfl (ix1 r)
      = ∑ c : Fin 128, src (ix2 r c) := by
  have h := Ideal.multiReduction_add_single (a := (1 : Fin 2)) src 0x00000000#32 reduces_S128x128_S128 (.inl rfl) rfl (ix1 r)
  rw [h]
  exact Finset.sum_congr rfl fun k _ => congrArg src (lift_blk r k)

/-- The row maximum, from -∞, kept as a column. -/
theorem rowmax_apply (r : Fin 128) :
    k0_pay5 (F := Ideal) v2 v5 v9 (ix2 r (0 : Fin 1))
      = Finset.univ.fold max (Ideal.ofBits .f32 0xFF800000#32) (fun j : Fin 8192 => k0_pay4 (F := Ideal) v2 v5 v9 (ix2 r j)) := by
  unfold k0_pay5
  refine (Cert.Lib.Keepdims.shapeCast_a_a1_apply _ _ r 0).trans ?_
  exact rowmax_read _ r

/-- The exponential of the difference to the row maximum. -/
theorem expd_apply (r : Fin 128) (j : Fin 8192) :
    k0_pay6 (F := Ideal) v2 v5 v9 (ix2 r j)
      = Ideal.exp (k0_pay4 (F := Ideal) v2 v5 v9 (ix2 r j) - k0_pay5 (F := Ideal) v2 v5 v9 (ix2 r (0 : Fin 1))) := by
  unfold k0_pay6
  exact congrArg (fun s => Ideal.exp (k0_pay4 (F := Ideal) v2 v5 v9 (ix2 r j) - s))
    (Cert.Lib.Keepdims.broadcastTo_a1_ab_apply (k0_pay5 (F := Ideal) v2 v5 v9) broadcasts_S128x1_S128x8192 r j)

/-- The row sum of those exponentials, kept as a column. -/
theorem rowsum_apply (r : Fin 128) :
    k0_pay7 (F := Ideal) v2 v5 v9 (ix2 r (0 : Fin 1)) = ∑ j : Fin 8192, k0_pay6 (F := Ideal) v2 v5 v9 (ix2 r j) := by
  unfold k0_pay7
  refine (Cert.Lib.Keepdims.shapeCast_a_a1_apply _ _ r 0).trans ?_
  exact rowsum_read _ r

/-- The first softmax. -/
theorem soft1_apply (r : Fin 128) (j : Fin 8192) :
    k0_pay8 (F := Ideal) v2 v5 v9 (ix2 r j)
      = Ideal.div (k0_pay6 (F := Ideal) v2 v5 v9 (ix2 r j)) (k0_pay7 (F := Ideal) v2 v5 v9 (ix2 r (0 : Fin 1))) := by
  unfold k0_pay8
  exact congrArg (fun s => Ideal.div (k0_pay6 (F := Ideal) v2 v5 v9 (ix2 r j)) s)
    (Cert.Lib.Keepdims.broadcastTo_a1_ab_apply (k0_pay7 (F := Ideal) v2 v5 v9) broadcasts_S128x1_S128x8192 r j)

end Cert.KernelIdeal.Body

end
-- ==== Proof.KDiag.lean ====
/-
  The diagonal entry of a block row, read at the exact extended reals: the body takes the 128 × 128
  diagonal block's masked similarity, keeps each row's entry on the diagonal and zero elsewhere (two
  coordinate counters compared as 32-bit words), and sums along the row; the sum's one non-zero term
  is the entry at (r, r). Then one more than it, and the larger of the row maximum and that.
-/
import proofs.«120257_j64768106823900_2_alg».proof.Proof.KBody

noncomputable section

namespace Cert.KernelIdeal.Body

open Cert.KernelIdeal Cert.KernelIdeal.Gen Idealize.ShloMosaic Idealize.ShloMosaic.ValueIdx

variable (v2 : Vec Ideal S8192x256 .f32) (v5 : Vec Ideal S128x256 .f32) (v9 : Vec Ideal S128x8192 .f32)
  (v26 : Vec Ideal S128x128 .f32)

/-! ## The diagonal entry -/

/-- 32-bit words of numbers below 2^32 are equal exactly when the numbers are. -/
theorem ofNat32_inj {a b : Nat} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl; rfl

/-- The integer comparison of two such words answers 1 exactly when the numbers are equal. -/
theorem cmpi_eq_one_iff {a b : Nat} (ha : a < 4294967296) (hb : b < 4294967296) :
    IntOp.cmpi .eq (BitVec.ofNat 32 a) (BitVec.ofNat 32 b) = 1#1 ↔ a = b := by
  rw [← ofNat32_inj ha hb]
  show BitVec.ofBool (BitVec.ofNat 32 a == BitVec.ofNat 32 b) = 1#1 ↔ _
  by_cases h : BitVec.ofNat 32 a = BitVec.ofNat 32 b
  · simp [h]
  · have hb' : (BitVec.ofNat 32 a == BitVec.ofNat 32 b) = false := by simpa using h
    rw [hb']
    exact iff_of_false (by decide) h

/-- One entry of a 128 × 128 array kept where the row and column counters agree and replaced by zero
    elsewhere: the entry on the diagonal, zero off it. -/
theorem keepDiag_apply (W : FVec Ideal S128x128 .f32) (r c : Fin 128) :
    (select (cmpi .eq (iota .tc S128x128 32 [0] iota_S128x128_d0_w32) (iota .tc S128x128 32 [1] iota_S128x128_d1_w32)) W
        (broadcast S128x128 (Scalar.ofBits (F := Ideal) .f32 0x00000000#32))) (ix2 r c)
      = if c = r then W (ix2 r c) else 0 := by
  show Scalar.select (IntOp.cmpi .eq (iota .tc S128x128 32 [0] iota_S128x128_d0_w32 (ix2 r c))
      (iota .tc S128x128 32 [1] iota_S128x128_d1_w32 (ix2 r c))) (W (ix2 r c)) (Ideal.ofBits .f32 0x00000000#32) = _
  rw [iota_single_apply, iota_single_apply]
  show Scalar.select (IntOp.cmpi .eq (BitVec.ofNat 32 r.val) (BitVec.ofNat 32 c.val)) (W (ix2 r c))
      (Ideal.ofBits .f32 0x00000000#32) = _
  have hr : r.val < 4294967296 := by have := r.isLt; omega
  have hc : c.val < 4294967296 := by have := c.isLt; omega
  by_cases h : c = r
  · rw [if_pos h, (cmpi_eq_one_iff hr hc).mpr (congrArg Fin.val h.symm), select_one]
  · have hne : ¬ IntOp.cmpi .eq (BitVec.ofNat 32 r.val) (BitVec.ofNat 32 c.val) = 1#1 := fun hh =>
      h (Fin.ext ((cmpi_eq_one_iff hr hc).mp hh).symm)
    rw [if_neg h, eq_zero_of_ne_one hne, select_zero]
    exact Ideal.ofBits_zero_f32

/-- Summed along row r, only the diagonal entry is left. -/
theorem keepDiag_sum (W : FVec Ideal S128x128 .f32) (r : Fin 128) :
    (∑ c : Fin 128, (select (cmpi .eq (iota .tc S128x128 32 [0] iota_S128x128_d0_w32) (iota .tc S128x128 32 [1] iota_S128x128_d1_w32)) W
        (broadcast S128x128 (Scalar.ofBits (F := Ideal) .f32 0x00000000#32))) (ix2 r c)) = W (ix2 r r) := by
  refine (Finset.sum_congr rfl fun c _ => keepDiag_apply W r c).trans ?_
  rw [Finset.sum_ite_eq' Finset.univ r, if_pos (Finset.mem_univ r)]

/-- The row's diagonal entry: the sum over the diagonal block's row r of the entries kept where the
    column is r and zero elsewhere is the block's masked similarity at (r, r). -/
theorem diag_apply (r : Fin 128) :
    k0_pay9 (F := Ideal) v5 v26 (ix2 r (0 : Fin 1))
      = if Ideal.cmp .ogt (v26 (ix2 r r)) (Ideal.ofBits .f32 0x00000000#32) = 1#1
        then Ideal.logistic (∑ k : Fin 256, v5 (ix2 r k) * v5 (ix2 r k)) else Ideal.ofBits .f32 0xD9FFCB9E#32 := by
  unfold k0_pay9 k0_pay3
  simp only [shapeCast_self]
  refine (Cert.Lib.Keepdims.shapeCast_a_a1_apply _ _ r 0).trans ?_
  refine (blksum_read _ r).trans ?_
  refine (keepDiag_sum _ r).trans ?_
  exact congrArg (fun s => if Ideal.cmp .ogt (v26 (ix2 r r)) (Ideal.ofBits .f32 0x00000000#32) = 1#1
    then Ideal.logistic s else Ideal.ofBits .f32 0xD9FFCB9E#32) (Products.gram_diag v5 v5 r r)

/-- One more than the diagonal entry, and the larger of the row maximum and it. -/
theorem newd_apply (r : Fin 128) :
    k0_pay10 (F := Ideal) v5 v26 (ix2 r (0 : Fin 1)) = k0_pay9 (F := Ideal) v5 v26 (ix2 r (0 : Fin 1)) + Ideal.ofBits .f32 0x3F800000#32 := by
  unfold k0_pay10
  exact addf_apply (k0_pay9 (F := Ideal) v5 v26) (broadcast S128x1 (Scalar.ofBits (F := Ideal) .f32 0x3F800000#32)) (ix2 r (0 : Fin 1))

theorem newmax_apply (r : Fin 128) :
    k0_pay11 (F := Ideal) v2 v5 v9 v26 (ix2 r (0 : Fin 1))
      = max (k0_pay5 (F := Ideal) v2 v5 v9 (ix2 r (0 : Fin 1))) (k0_pay10 (F := Ideal) v5 v26 (ix2 r (0 : Fin 1))) := by
  unfold k0_pay11
  exact maximumf_apply (k0_pay5 (F := Ideal) v2 v5 v9) (k0_pay10 (F := Ideal) v5 v26) (ix2 r (0 : Fin 1))

end Cert.KernelIdeal.Body

end
-- ==== Proof.KShift.lean ====
/-
  The second softmax block and the output block read entry by entry at the exact extended reals. The
  second softmax of a block row is obtained from the first: away from the diagonal column the first
  exponential times exp(m1 − m2), on the diagonal column exp(d + 1 − m2), all divided by
  exp(m1 − m2) · (l1 − exp(d − m1)) + exp(d + 1 − m2); the diagonal column is found by comparing the
  row offset plus the block row with the column, as 32-bit words. The output entry is the sum of the
  two softmax rows' products with a column of the second projection, each passed through the leaky
  rectification.
-/
import proofs.«120257_j64768106823900_2_alg».proof.Proof.KBody

noncomputable section

namespace Cert.KernelIdeal.Body

open Cert.KernelIdeal Cert.KernelIdeal.Gen Idealize.ShloMosaic Idealize.ShloMosaic.ValueIdx

/-- A column broadcast along the rows of the 128 × 8192 block reads its row's entry. -/
theorem bcol_apply (v : FVec Ideal S128x1 .f32) (r : Fin 128) (j : Fin 8192) :
    broadcastTo S128x8192 v broadcasts_S128x1_S128x8192 (ix2 r j) = v (ix2 r (0 : Fin 1)) :=
  Cert.Lib.Keepdims.broadcastTo_a1_ab_apply v broadcasts_S128x1_S128x8192 r j

/-- The row counter and the column counter of the 128 × 8192 block, as 32-bit words. -/
theorem iota_row (r : Fin 128) (j : Fin 8192) :
    iota .tc S128x8192 32 [0] iota_S128x8192_d0_w32 (ix2 r j) = BitVec.ofNat 32 r.val :=
  iota_single_apply .tc S128x8192 32 0 iota_S128x8192_d0_w32 (ix2 r j)

theorem iota_col (r : Fin 128) (j : Fin 8192) :
    iota .tc S128x8192 32 [1] iota_S128x8192_d1_w32 (ix2 r j) = BitVec.ofNat 32 j.val :=
  iota_single_apply .tc S128x8192 32 1 iota_S128x8192_d1_w32 (ix2 r j)

/-- The second softmax from the first one's data (row maximum v15, exponentials v18, row sum v20,
    diagonal entry v37, one more v39, the new maximum v40). -/
theorem soft2_apply (v1 : BitVec 32) (v15 v20 v37 v39 v40 : FVec Ideal S128x1 .f32) (v18 : FVec Ideal S128x8192 .f32)
    (r : Fin 128) (j : Fin 8192) :
    k0_pay1 (F := Ideal) v1 v15 v18 v20 v37 v39 v40 (ix2 r j)
      = Ideal.div (if IntOp.cmpi .eq (IntOp.addi v1 (BitVec.ofNat 32 r.val)) (BitVec.ofNat 32 j.val) = 1#1
                    then Ideal.exp (v39 (ix2 r (0 : Fin 1)) - v40 (ix2 r (0 : Fin 1)))
                    else v18 (ix2 r j) * Ideal.exp (v15 (ix2 r (0 : Fin 1)) - v40 (ix2 r (0 : Fin 1))))
          (Ideal.exp (v15 (ix2 r (0 : Fin 1)) - v40 (ix2 r (0 : Fin 1)))
              * (v20 (ix2 r (0 : Fin 1)) - Ideal.exp (v37 (ix2 r (0 : Fin 1)) - v15 (ix2 r (0 : Fin 1))))
            + Ideal.exp (v39 (ix2 r (0 : Fin 1)) - v40 (ix2 r (0 : Fin 1)))) := by
  unfold k0_pay1
  simp only [shapeCast_self]
  show Ideal.div (Scalar.select (IntOp.cmpi .eq (IntOp.addi v1 (iota .tc S128x8192 32 [0] iota_S128x8192_d0_w32 (ix2 r j)))
          (iota .tc S128x8192 32 [1] iota_S128x8192_d1_w32 (ix2 r j)))
        (broadcastTo S128x8192 (exp (subf v39 v40)) broadcasts_S128x1_S128x8192 (ix2 r j))
        (v18 (ix2 r j) * broadcastTo S128x8192 (exp (subf v15 v40)) broadcasts_S128x1_S128x8192 (ix2 r j)))
      (broadcastTo S128x8192 (addf (mulf (exp (subf v15 v40)) (subf v20 (exp (subf v37 v15)))) (exp (subf v39 v40)))
        broadcasts_S128x1_S128x8192 (ix2 r j)) = _
  rw [bcol_apply, bcol_apply, bcol_apply, iota_row, iota_col]
  rfl

/-- The leaky rectification of one extended real. -/
def leaky1 (y : EReal) : EReal :=
  if Ideal.cmp .oge y (Ideal.ofBits .f32 0x00000000#32) = 1#1 then y else Ideal.ofBits .f32 0x3C23D70A#32 * y

/-- The output entry. -/
theorem out_apply (v1 : BitVec 32) (v15 v20 v37 v39 v40 : FVec Ideal S128x1 .f32) (v18 v22 : FVec Ideal S128x8192 .f32)
    (v63 : Vec Ideal S8192x128 .f32) (r o : Fin 128) :
    k0_pay2 (F := Ideal) v1 v15 v18 v20 v22 v37 v39 v40 v63 (ix2 r o)
      = leaky1 (∑ j : Fin 8192, k0_pay1 (F := Ideal) v1 v15 v18 v20 v37 v39 v40 (ix2 r j) * v63 (ix2 j o))
        + leaky1 (∑ j : Fin 8192, v22 (ix2 r j) * v63 (ix2 j o)) := by
  unfold k0_pay2
  simp only [shapeCast_self]
  have e1 := Products.propagate (k0_pay1 (F := Ideal) v1 v15 v18 v20 v37 v39 v40) v63 r o
  have e2 := Products.propagate v22 v63 r o
  show leaky1 (matmul dot_S128x8192_S8192x128_S128x128_1_0_0_1_n_n (some .fp32) (k0_pay1 (F := Ideal) v1 v15 v18 v20 v37 v39 v40) v63
        (constant S128x128 .f32 0x00000000#32) (ix2 r o))
      + leaky1 (matmul dot_S128x8192_S8192x128_S128x128_1_0_0_1_n_n (some .fp32) v22 v63 (constant S128x128 .f32 0x00000000#32) (ix2 r o)) = _
  rw [e1, e2]

end Cert.KernelIdeal.Body

end
-- ==== Proof.KPieces.lean ====
/-
  What one grid point's body leaves in the two output blocks, as values. The body loads the whole
  adjacency block, the whole first projection and the whole second projection, and two sub-blocks at
  the point's own offset: the block's own 128 rows of the first projection, and the 128 × 128 diagonal
  block of the adjacency block. Each output block is written by one covering store, whose value is the
  body's arithmetic applied to those five arrays.
-/
import proofs.«120257_j64768106823900_2_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.Pieces

open Cert.KernelIdeal Cert.KernelIdeal.Gen Idealize.ShloMosaic.ValueIdx
open Facts₀ Facts

variable {F : FTy → Type} [FloatOps F]

theorem hz : (![0, 0] : Fin 2 → Nat) = fun _ => 0 := funext fun a => by fin_cases a <;> rfl

/-- The block's own rows of the first projection: 128 rows from the point's row offset. -/
def ownRows (i : grid0.Coords) (x1 : Vec F S8192x256 .f32) : Vec F S128x256 .f32 :=
  View.ld x1 (Rect.unit (s := S8192x256) (k0_off1 i) S128x256.size (Gen.k0_off1_inb i))

/-- The diagonal block of the adjacency block: 128 columns from the point's row offset. -/
def diagBlock (i : grid0.Coords) (x0 : Vec F S128x8192 .f32) : Vec F S128x128 .f32 :=
  View.ld x0 (Rect.unit (s := S128x8192) (k0_off2 i) S128x128.size (Gen.k0_off2_inb i))

/-- The row offset as the 32-bit word the body computes. -/
def rowWord (i : grid0.Coords) : BitVec 32 := Scalar.muli (BitVec.ofNat 32 (i 0).val) 128#32

/-- The second softmax block: the one covering store's value. -/
theorem soft_block (c : Dev nD) (i : grid0.Coords) (a1 : Memref sig .tc .vmem S128x8192 .f32) (h1 : a1.IsWhole) (a2 : Memref sig .tc .vmem S8192x256 .f32) (h2 : a2.IsWhole) (a3 : Memref sig .tc .vmem S8192x128 .f32) (h3 : a3.IsWhole) (a4 : Memref sig .tc .vmem S128x8192 .f32) (h4 : a4.IsWhole) (a5 : Memref sig .tc .vmem S128x128 .f32) (h5 : a5.IsWhole)
    (x0 : Vec F S128x8192 .f32) (x1 : Vec F S8192x256 .f32) (x2 : Vec F S8192x128 .f32) :
    out0_A_3 c i a1 h1 a2 h2 a3 h3 a4 h4 a5 h5 x0 x1 x2
      = k0_pay1 (rowWord i) (k0_pay5 x1 (ownRows i x1) x0) (k0_pay6 x1 (ownRows i x1) x0) (k0_pay7 x1 (ownRows i x1) x0)
          (k0_pay9 (ownRows i x1) (diagBlock i x0)) (k0_pay10 (ownRows i x1) (diagBlock i x0))
          (k0_pay11 x1 (ownRows i x1) x0 (diagBlock i x0)) := by
  unfold out0_A_3
  rw [View.read_writes_eq_canon _ _ _ (cover0_A_3 c i a1 h1 a2 h2 a3 h3 a4 h4 a5 h5 x0 x1 x2)]
  unfold kernelRun0_A
  dsimp only
  sl_unfold_run_names
  rw [View.canon_unit_zero hz]
  simp only [View.readAt_eq_ld, h1.read_unread, h2.read_unread, h3.read_unread, View.ld_unit_zero (S := S128x8192) hz,
    View.ld_unit_zero (S := S8192x256) hz, View.ld_unit_zero (S := S8192x128) hz]
  rfl

/-- The output block: the one covering store's value. -/
theorem out_block (c : Dev nD) (i : grid0.Coords) (a1 : Memref sig .tc .vmem S128x8192 .f32) (h1 : a1.IsWhole) (a2 : Memref sig .tc .vmem S8192x256 .f32) (h2 : a2.IsWhole) (a3 : Memref sig .tc .vmem S8192x128 .f32) (h3 : a3.IsWhole) (a4 : Memref sig .tc .vmem S128x8192 .f32) (h4 : a4.IsWhole) (a5 : Memref sig .tc .vmem S128x128 .f32) (h5 : a5.IsWhole)
    (x0 : Vec F S128x8192 .f32) (x1 : Vec F S8192x256 .f32) (x2 : Vec F S8192x128 .f32) :
    out0_A_4 c i a1 h1 a2 h2 a3 h3 a4 h4 a5 h5 x0 x1 x2
      = k0_pay2 (rowWord i) (k0_pay5 x1 (ownRows i x1) x0) (k0_pay6 x1 (ownRows i x1) x0) (k0_pay7 x1 (ownRows i x1) x0)
          (k0_pay8 x1 (ownRows i x1) x0)
          (k0_pay9 (ownRows i x1) (diagBlock i x0)) (k0_pay10 (ownRows i x1) (diagBlock i x0))
          (k0_pay11 x1 (ownRows i x1) x0 (diagBlock i x0)) x2 := by
  unfold out0_A_4
  rw [View.read_writes_eq_canon _ _ _ (cover0_A_4 c i a1 h1 a2 h2 a3 h3 a4 h4 a5 h5 x0 x1 x2)]
  unfold kernelRun0_A
  dsimp only
  sl_unfold_run_names
  rw [View.canon_unit_zero hz]
  simp only [View.readAt_eq_ld, h1.read_unread, h2.read_unread, h3.read_unread, View.ld_unit_zero (S := S128x8192) hz,
    View.ld_unit_zero (S := S8192x256) hz, View.ld_unit_zero (S := S8192x128) hz]
  rfl

/-- At grid point t the offsets are 128 · t rows (columns, for the diagonal block), and the row word
    is the word of 128 · t. -/
theorem offsets : ∀ t : Fin cfg0.N,
    k0_off1 (grid0.coords t) (0 : Fin 2) = 128 * t.val ∧ k0_off1 (grid0.coords t) (1 : Fin 2) = 0
    ∧ k0_off2 (grid0.coords t) (0 : Fin 2) = 0 ∧ k0_off2 (grid0.coords t) (1 : Fin 2) = 128 * t.val
    ∧ rowWord (grid0.coords t) = BitVec.ofNat 32 (128 * t.val) :=
  (by decide +kernel : ∀ t : Fin grid0.N, _)

/-- The own rows at (r, k) are the first projection at (128 t + r, k). -/
theorem ownRows_apply (t : Fin cfg0.N) (x1 : Vec F S8192x256 .f32) (r : Fin 128) (k : Fin 256)
    (hr : 128 * t.val + r.val < 8192) :
    ownRows (grid0.coords t) x1 (ix2 r k) = x1 (ix2 ⟨128 * t.val + r.val, hr⟩ k) := by
  unfold ownRows
  show x1 _ = x1 _
  refine congrArg x1 (funext fun a => Fin.ext ?_)
  match a with
  | ⟨0, _⟩ => show k0_off1 (grid0.coords t) (0 : Fin 2) + 1 * r.val = 128 * t.val + r.val; rw [(offsets t).1]; omega
  | ⟨1, _⟩ => show k0_off1 (grid0.coords t) (1 : Fin 2) + 1 * k.val = k.val; rw [(offsets t).2.1]; omega

/-- The diagonal block at (r, c) is the adjacency block at (r, 128 t + c). -/
theorem diagBlock_apply (t : Fin cfg0.N) (x0 : Vec F S128x8192 .f32) (r c : Fin 128)
    (hc : 128 * t.val + c.val < 8192) :
    diagBlock (grid0.coords t) x0 (ix2 r c) = x0 (ix2 r ⟨128 * t.val + c.val, hc⟩) := by
  unfold diagBlock
  show x0 _ = x0 _
  refine congrArg x0 (funext fun a => Fin.ext ?_)
  match a with
  | ⟨0, _⟩ => show k0_off2 (grid0.coords t) (0 : Fin 2) + 1 * r.val = r.val; rw [(offsets t).2.2.1]; omega
  | ⟨1, _⟩ => show k0_off2 (grid0.coords t) (1 : Fin 2) + 1 * c.val = 128 * t.val + c.val; rw [(offsets t).2.2.2.1]; omega

end Cert.KernelIdeal.Pieces

end
-- ==== Proof.KBlocks.lean ====
/-
  The geometry of the kernel's one grid of 64 points. Point t reads rows 128 t … 128 t + 127 of the adjacency (all
  8192 columns) and the two projections whole, and writes rows 128 t … 128 t + 127 of both results (all 8192 columns
  of the first, all 128 of the second). Hence: an input block read at an index is the array read at the index moved
  down by 128 t rows (the projections' blocks are the arrays themselves); and, the 64 row blocks filling each result
  array, an array-sized function that agrees with what every point writes, row by row, is what the array ends holding.
-/
import proofs.«120257_j64768106823900_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (c : Dev nD)

/-- Row r of the t-th block of 128 rows: row 128 t + r of the 8192. -/
abbrev rowOf (t : Fin cfg0.N) (r : Fin 128) : Fin 8192 :=
  ⟨128 * t.val + r.val, by have hN : cfg0.N = 64 := N_0; have ht := t.isLt; have hr := r.isLt; omega⟩

@[simp] theorem rowOf_val (t : Fin cfg0.N) (r : Fin 128) : (rowOf t r).val = 128 * t.val + r.val := rfl

/-! ## The block indices, decided over the 64 points -/

/-- The adjacency's block at point t is row block t, column block 0. -/
theorem idx0 : ∀ t : Fin cfg0.N, win0_0.index t (0 : Fin 2) = t.val ∧ win0_0.index t (1 : Fin 2) = 0 :=
  (by decide +kernel : ∀ t : Fin grid0.N, _)

/-- The first projection's block is block (0, 0) at every point. -/
theorem idx1 : ∀ t : Fin cfg0.N, win0_1.index t (0 : Fin 2) = 0 ∧ win0_1.index t (1 : Fin 2) = 0 :=
  (by decide +kernel : ∀ t : Fin grid0.N, _)

/-- The second projection's block is block (0, 0) at every point. -/
theorem idx2 : ∀ t : Fin cfg0.N, win0_2.index t (0 : Fin 2) = 0 ∧ win0_2.index t (1 : Fin 2) = 0 :=
  (by decide +kernel : ∀ t : Fin grid0.N, _)

/-! ## The input blocks as the arrays they are cut from -/

/-- The first projection's block at any point is the whole array: the block has the array's extents and sits at
    offset 0 on both axes. -/
theorem iblk1_eq (t : Fin cfg0.N) : (iblk m c 1 t : Vec F S8192x256 .f32) = V m c main_v22 := by
  obtain ⟨e0, e1⟩ := idx1 t
  unfold iblk
  funext y
  rw [View.read_apply]
  show V m c main_v22 (((cfg0.win 1).blk t).view.emb y) = V m c main_v22 y
  congr 1
  funext a
  apply Fin.ext
  match a with
  | ⟨0, _⟩ => show win0_1.index t (0 : Fin 2) * 8192 + 1 * (y 0).val = (y 0).val; rw [e0]; omega
  | ⟨1, _⟩ => show win0_1.index t (1 : Fin 2) * 256 + 1 * (y 1).val = (y 1).val; rw [e1]; omega

/-- The second projection's block at any point is the whole array. -/
theorem iblk2_eq (t : Fin cfg0.N) : (iblk m c 2 t : Vec F S8192x128 .f32) = V m c main_v26 := by
  obtain ⟨e0, e1⟩ := idx2 t
  unfold iblk
  funext y
  rw [View.read_apply]
  show V m c main_v26 (((cfg0.win 2).blk t).view.emb y) = V m c main_v26 y
  congr 1
  funext a
  apply Fin.ext
  match a with
  | ⟨0, _⟩ => show win0_2.index t (0 : Fin 2) * 8192 + 1 * (y 0).val = (y 0).val; rw [e0]; omega
  | ⟨1, _⟩ => show win0_2.index t (1 : Fin 2) * 128 + 1 * (y 1).val = (y 1).val; rw [e1]; omega

/-- The adjacency's block at point t, read at row r and column j, is the adjacency at row 128 t + r, column j. -/
theorem iblk0_apply (t : Fin cfg0.N) (r : Fin 128) (j : Fin 8192) :
    (iblk m c 0 t : Vec F S128x8192 .f32) (ix2 r j) = V m c main_arg1 (ix2 (rowOf t r) j) := by
  obtain ⟨e0, e1⟩ := idx0 t
  unfold iblk
  rw [View.read_apply]
  show V m c main_arg1 (((cfg0.win 0).blk t).view.emb (ix2 r j)) = V m c main_arg1 (ix2 (rowOf t r) j)
  congr 1
  funext a
  apply Fin.ext
  match a with
  | ⟨0, _⟩ => show win0_0.index t (0 : Fin 2) * 128 + 1 * r.val = 128 * t.val + r.val; rw [e0]; omega
  | ⟨1, _⟩ => show win0_0.index t (1 : Fin 2) * 8192 + 1 * j.val = j.val; rw [e1]; omega

/-! ## The first result array: 64 blocks of 128 full rows -/

/-- Its block at point t is row block t, column block 0. -/
theorem idx3 : ∀ t : Fin cfg0.N, win0_3.index t (0 : Fin 2) = t.val ∧ win0_3.index t (1 : Fin 2) = 0 :=
  (by decide +kernel : ∀ t : Fin grid0.N, _)

/-- What point t writes back is rows 128 t … 128 t + 127 of G, for any G that the point's result agrees with row by
    row: an element of the block sits in the array at block index × block size + its own coordinate. -/
theorem flushed3_eq (G : S8192x8192.Idx → F .f32) (hpt : ∀ (t : Fin cfg0.N) (r : Fin 128) (j : Fin 8192), out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r j) = G (ix2 (rowOf t r) j))
    (t : Fin cfg0.N) : (dats m 0 c).flushed 3 t = ((cfg0.win 3).blk t).view.read (Elt F) G := by
  rw [Value.flushed3_A]
  obtain ⟨e0, e1⟩ := idx3 t
  funext y
  obtain ⟨r, j, rfl⟩ : ∃ (r : Fin 128) (j : Fin 8192), y = ix2 r j := ⟨y 0, y 1, eq_ix2 y⟩
  rw [View.read_apply]
  show out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r j) = G (((cfg0.win 3).blk t).view.emb (ix2 r j))
  rw [hpt t r j]
  congr 1
  funext a
  apply Fin.ext
  match a with
  | ⟨0, _⟩ => show 128 * t.val + r.val = win0_3.index t (0 : Fin 2) * 128 + 1 * r.val; rw [e0]; omega
  | ⟨1, _⟩ => show j.val = win0_3.index t (1 : Fin 2) * 8192 + 1 * j.val; rw [e1]; omega

/-- An index of the array is in point t's block iff each coordinate is in the block's range on its axis. -/
theorem mem_blk3 (t : Fin cfg0.N) (i : S8192x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v27_0).slice (win0_3.rect t)).set ↔ _
  rw [View.set_slice_whole, Rect.mem_set_unit]
  exact Iff.rfl

/-- Every index of the array is in some point's block: row i is in the block of point ⌊i / 128⌋. -/
theorem cover3 (i : S8192x8192.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 8192 := (i 1).isLt
  have hq : (i 0).val / 128 < cfg0.N := by omega
  obtain ⟨e0, e1⟩ := idx3 ⟨(i 0).val / 128, hq⟩
  have e0' : win0_3.index ⟨(i 0).val / 128, hq⟩ (0 : Fin 2) = (i 0).val / 128 := e0
  refine ⟨⟨(i 0).val / 128, hq⟩, flush0_3 _, ?_⟩
  rw [mem_blk3]
  intro a
  match a with
  | ⟨0, _⟩ =>
    show win0_3.index ⟨(i 0).val / 128, hq⟩ (0 : Fin 2) * 128 ≤ (i 0).val ∧ (i 0).val < win0_3.index ⟨(i 0).val / 128, hq⟩ (0 : Fin 2) * 128 + 128
    rw [e0']; omega
  | ⟨1, _⟩ =>
    show win0_3.index ⟨(i 0).val / 128, hq⟩ (1 : Fin 2) * 8192 ≤ (i 1).val ∧ (i 1).val < win0_3.index ⟨(i 0).val / 128, hq⟩ (1 : Fin 2) * 8192 + 8192
    rw [e1]; omega

/-- The first result array ends holding G, for any G that every point's result agrees with row by row. -/
theorem final3 (G : S8192x8192.Idx → F .f32) (hpt : ∀ (t : Fin cfg0.N) (r : Fin 128) (j : Fin 8192), out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r j) = G (ix2 (rowOf t r) j)) :
    (dats m 0 c).arrAt 3 cfg0.N = G :=
  (dats m 0 c).arrAt_eq_of_cover 3 G (fun t _ => flushed3_eq m c G hpt t) cover3

/-! ## The second result array: 64 blocks of 128 rows of 128 -/

/-- Its block at point t is row block t, column block 0. -/
theorem idx4 : ∀ t : Fin cfg0.N, win0_4.index t (0 : Fin 2) = t.val ∧ win0_4.index t (1 : Fin 2) = 0 :=
  (by decide +kernel : ∀ t : Fin grid0.N, _)

/-- What point t writes back is rows 128 t … 128 t + 127 of G, for any G that the point's result agrees with row by
    row. -/
theorem flushed4_eq (G : S8192x128.Idx → F .f32) (hpt : ∀ (t : Fin cfg0.N) (r o : Fin 128), out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r o) = G (ix2 (rowOf t r) o))
    (t : Fin cfg0.N) : (dats m 0 c).flushed 4 t = ((cfg0.win 4).blk t).view.read (Elt F) G := by
  rw [Value.flushed4_A]
  obtain ⟨e0, e1⟩ := idx4 t
  funext y
  obtain ⟨r, o, rfl⟩ : ∃ (r o : Fin 128), y = ix2 r o := ⟨y 0, y 1, eq_ix2 y⟩
  rw [View.read_apply]
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r o) = G (((cfg0.win 4).blk t).view.emb (ix2 r o))
  rw [hpt t r o]
  congr 1
  funext a
  apply Fin.ext
  match a with
  | ⟨0, _⟩ => show 128 * t.val + r.val = win0_4.index t (0 : Fin 2) * 128 + 1 * r.val; rw [e0]; omega
  | ⟨1, _⟩ => show o.val = win0_4.index t (1 : Fin 2) * 128 + 1 * o.val; rw [e1]; omega

/-- An index of the array is in point t's block iff each coordinate is in the block's range on its axis. -/
theorem mem_blk4 (t : Fin cfg0.N) (i : S8192x128.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v27_1).slice (win0_4.rect t)).set ↔ _
  rw [View.set_slice_whole, Rect.mem_set_unit]
  exact Iff.rfl

/-- Every index of the array is in some point's block: row i is in the block of point ⌊i / 128⌋. -/
theorem cover4 (i : S8192x128.Idx) :
    ∃ t : Fin cfg0.N, (cfg0.win 4).flush t = true ∧ i ∈ ((cfg0.win 4).blk t).view.set := by
  have hN : cfg0.N = 64 := N_0
  have hi0 : (i 0).val < 8192 := (i 0).isLt
  have hi1 : (i 1).val < 128 := (i 1).isLt
  have hq : (i 0).val / 128 < cfg0.N := by omega
  obtain ⟨e0, e1⟩ := idx4 ⟨(i 0).val / 128, hq⟩
  have e0' : win0_4.index ⟨(i 0).val / 128, hq⟩ (0 : Fin 2) = (i 0).val / 128 := e0
  refine ⟨⟨(i 0).val / 128, hq⟩, flush0_4 _, ?_⟩
  rw [mem_blk4]
  intro a
  match a with
  | ⟨0, _⟩ =>
    show win0_4.index ⟨(i 0).val / 128, hq⟩ (0 : Fin 2) * 128 ≤ (i 0).val ∧ (i 0).val < win0_4.index ⟨(i 0).val / 128, hq⟩ (0 : Fin 2) * 128 + 128
    rw [e0']; omega
  | ⟨1, _⟩ =>
    show win0_4.index ⟨(i 0).val / 128, hq⟩ (1 : Fin 2) * 128 ≤ (i 1).val ∧ (i 1).val < win0_4.index ⟨(i 0).val / 128, hq⟩ (1 : Fin 2) * 128 + 128
    rw [e1]; omega

/-- The second result array ends holding G, for any G that every point's result agrees with row by row. -/
theorem final4 (G : S8192x128.Idx → F .f32) (hpt : ∀ (t : Fin cfg0.N) (r o : Fin 128), out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r o) = G (ix2 (rowOf t r) o)) :
    (dats m 0 c).arrAt 4 cfg0.N = G :=
  (dats m 0 c).arrAt_eq_of_cover 4 G (fun t _ => flushed4_eq m c G hpt t) cover4

end Cert.KernelIdeal.Blocks

end
-- ==== Proof.RowShift.lean ====
/-
  Softmax of a row of real numbers with `1` added at one column, computed two ways.

  For a row `a : ι → ℝ` and a column `i`, the shifted row is `x j = a j + [j = i]`. Its softmax is
  `exp (x j - M) / ∑ k, exp (x k - M)` with `M = max_k x k`. The same value is obtained from the unshifted
  row's maximum `m1 = max_k a k` and sum `l1 = ∑ k, exp (a k - m1)`: with `m2 = max m1 (a i + 1)` one has
  `M = m2`, `exp (a j - m1) * exp (m1 - m2) = exp (a j - m2)` off the column, and
  `∑ k, exp (x k - m2) = exp (m1 - m2) * (l1 - exp (a i - m1)) + exp (a i + 1 - m2)`.

  Everything is stated on the extended reals with the idealized `exp` and quotient; all the values that
  occur are real (the maximum of a nonempty finite family of reals, folded from `⊥`, is real and
  attained), so each extended-real operation is the real one.

  Also here: the values of four single-precision bit patterns, and the fact that for a real `x` and the
  positive literal `c` nearest `1e-5`, `⌈x * c⌉ > 0` exactly when `x > 0`.
-/
import Idealize.ShloMosaic.PureOps.Ideal
import Mathlib.Analysis.SpecialFunctions.Exp

open Idealize.ShloMosaic

namespace Cert.RowShift

open scoped BigOperators

/-! ### Bit patterns -/

/-- The pattern `0xFF800000` (sign set, exponent all ones, zero significand) denotes `-∞`. -/
theorem ofBits_neg_inf : Ideal.ofBits .f32 0xFF800000#32 = ⊥ := by simp [Ideal.ofBits, Ideal.ieee]

/-- The pattern `0x3F800000` denotes `1`: `2^23 * 2^(127 - 127 - 23)`. -/
theorem ofBits_one : Ideal.ofBits .f32 0x3F800000#32 = 1 := by
  simp [Ideal.ofBits, Ideal.ieee, -EReal.coe_mul]
  norm_num

/-- The pattern `0xD9FFCB9E` is a (negative) normal number, hence a real. -/
theorem ofBits_big_neg : ∃ r : ℝ, Ideal.ofBits .f32 0xD9FFCB9E#32 = ((r : ℝ) : EReal) := by
  simp [Ideal.ofBits, Ideal.ieee, -EReal.coe_mul, -EReal.coe_neg]

/-- The pattern `0x3727C5AC` (the single-precision number nearest `1e-5`) denotes a positive real,
    `10995116 / 2^40`. -/
theorem ofBits_lit_pos : ∃ r : ℝ, 0 < r ∧ Ideal.ofBits .f32 0x3727C5AC#32 = ((r : ℝ) : EReal) := by
  simp [Ideal.ofBits, Ideal.ieee, -EReal.coe_mul]

/-- The all-zero pattern denotes `0`. -/
theorem ofBits_zero : Ideal.ofBits .f32 0x00000000#32 = 0 := by simp [Ideal.ofBits, Ideal.ieee]

/-! ### The mask -/

/-- For a real `x` and the positive literal `c`, the ceiling of `x * c` is positive exactly when `x` is:
    `0 < ⌈x * c⌉ ↔ 0 < x * c ↔ 0 < x`. So the two comparisons against `0` give the same bit. -/
theorem mask (x : ℝ) :
    Ideal.cmp .ogt (Ideal.liftRound Int.ceil ((x : EReal) * Ideal.ofBits .f32 0x3727C5AC#32))
        (Ideal.ofBits .f32 0x00000000#32)
      = Ideal.cmp .ogt (x : EReal) (Ideal.ofBits .f32 0x00000000#32) := by
  obtain ⟨r, hr, hc⟩ := ofBits_lit_pos
  rw [hc, ofBits_zero, ← EReal.coe_mul, Ideal.liftRound_coe]
  unfold Ideal.cmp
  congr 1
  rw [decide_eq_decide, ← EReal.coe_zero, EReal.coe_lt_coe_iff, EReal.coe_lt_coe_iff, Int.cast_pos,
    Int.ceil_pos]
  exact mul_pos_iff_of_pos_right hr

/-- The same for every extended real: at `⊤` and `⊥` the product with the positive literal and the ceiling
    leave the infinity where it is, so both comparisons against `0` read the same bit there too. -/
theorem mask_ereal (x : EReal) :
    Ideal.cmp .ogt (Ideal.liftRound Int.ceil (x * Ideal.ofBits .f32 0x3727C5AC#32))
        (Ideal.ofBits .f32 0x00000000#32)
      = Ideal.cmp .ogt x (Ideal.ofBits .f32 0x00000000#32) := by
  induction x using EReal.rec with
  | bot =>
    obtain ⟨r, hr, hc⟩ := ofBits_lit_pos
    rw [hc, EReal.bot_mul_coe_of_pos hr, Ideal.liftRound_bot]
  | coe x => exact mask x
  | top =>
    obtain ⟨r, hr, hc⟩ := ofBits_lit_pos
    rw [hc, EReal.top_mul_coe_of_pos hr, Ideal.liftRound_top]

/-! ### Maxima and sums of real rows in the extended reals -/
/-- The inclusion of the reals in the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- The fold of `max` from `⊥` over a finite family is its supremum. -/
theorem fold_max_eq_sup {ι : Type} [Fintype ι] (g : ι → EReal) :
    Finset.univ.fold max (⊥ : EReal) g = Finset.univ.sup g := rfl

/-- The maximum of a nonempty finite family of reals, folded in the extended reals from `⊥`, is a real
    number: an upper bound of the family that the family attains. -/
theorem fold_max_real {ι : Type} [Fintype ι] [Nonempty ι] (f : ι → ℝ) :
    ∃ r : ℝ, Finset.univ.fold max (⊥ : EReal) (fun j => (f j : EReal)) = (r : EReal)
      ∧ (∀ j, f j ≤ r) ∧ ∃ j, f j = r := by
  obtain ⟨x, -, hx⟩ := Finset.exists_max_image Finset.univ f Finset.univ_nonempty
  refine ⟨f x, ?_, fun j => hx j (Finset.mem_univ j), x, rfl⟩
  rw [fold_max_eq_sup]
  apply le_antisymm
  · exact Finset.sup_le fun j _ => EReal.coe_le_coe_iff.2 (hx j (Finset.mem_univ j))
  · exact Finset.le_sup (f := fun j => (f j : EReal)) (Finset.mem_univ x)

/-- Adding `1` at one column, in the extended reals, is adding the real `1` there. -/
theorem coe_shift {ι : Type} [DecidableEq ι] (a : ι → ℝ) (i k : ι) :
    (a k : EReal) + (if k = i then (1 : EReal) else 0) = ((a k + (if k = i then 1 else 0) : ℝ) : EReal) := by
  split_ifs <;> simp

/-- The maximum of the row shifted by `1` at column `i` is the larger of the row's maximum and `a i + 1`. -/
theorem fold_max_shift {ι : Type} [Fintype ι] [DecidableEq ι] (a : ι → ℝ) (i : ι) :
    Finset.univ.fold max (⊥ : EReal) (fun j => (a j : EReal) + (if j = i then (1 : EReal) else 0))
      = max (Finset.univ.fold max (⊥ : EReal) (fun j => (a j : EReal))) ((a i : EReal) + 1) := by
  rw [fold_max_eq_sup, fold_max_eq_sup]
  apply le_antisymm
  · refine Finset.sup_le fun j _ => ?_
    by_cases h : j = i
    · subst h; rw [if_pos rfl]; exact le_max_right _ _
    · rw [if_neg h, add_zero]
      exact le_trans (Finset.le_sup (f := fun j => (a j : EReal)) (Finset.mem_univ j)) (le_max_left _ _)
  · refine max_le (Finset.sup_le fun j _ => ?_) ?_
    · refine le_trans ?_ (Finset.le_sup (f := fun j => (a j : EReal) + (if j = i then (1 : EReal) else 0))
        (Finset.mem_univ j))
      rw [coe_shift]
      exact EReal.coe_le_coe_iff.2 (by split_ifs <;> linarith)
    · have := Finset.le_sup (f := fun j => (a j : EReal) + (if j = i then (1 : EReal) else 0))
        (Finset.mem_univ i)
      simpa using this

/-- The sum of the shifted row's exponentials, split at the shifted column and rescaled from the
    unshifted row's maximum `r1` to `m2` by `exp (a - r1) * exp (r1 - m2) = exp (a - m2)`. -/
theorem real_den {ι : Type} [Fintype ι] [DecidableEq ι] (a : ι → ℝ) (i : ι) (r1 m2 : ℝ) :
    Real.exp (r1 - m2) * ((∑ k, Real.exp (a k - r1)) - Real.exp (a i - r1)) + Real.exp (a i + 1 - m2)
      = ∑ k, Real.exp ((a k + (if k = i then 1 else 0)) - m2) := by
  rw [← Finset.add_sum_erase Finset.univ (fun k => Real.exp (a k - r1)) (Finset.mem_univ i),
    ← Finset.add_sum_erase Finset.univ (fun k => Real.exp ((a k + (if k = i then 1 else 0)) - m2))
      (Finset.mem_univ i)]
  rw [add_sub_cancel_left, Finset.mul_sum, if_pos rfl, add_comm]
  congr 1
  refine Finset.sum_congr rfl fun k hk => ?_
  rw [if_neg (Finset.ne_of_mem_erase hk), add_zero, ← Real.exp_add]
  congr 1; ring

/-- The larger of two reals, included in the extended reals, is the larger of the inclusions. -/
theorem coe_max (x y : ℝ) : ((max x y : ℝ) : EReal) = max (x : EReal) (y : EReal) :=
  EReal.coe_strictMono.monotone.map_max

/-- Softmax of the row shifted by `1` at column `i`, from the unshifted row's maximum `m1` and sum of
    exponentials, equals the softmax computed directly from the shifted row's maximum `M`: numerators and
    denominators agree term by term once `M = max m1 (a i + 1)` and every value is seen to be real. -/
theorem shifted_row {ι : Type} [Fintype ι] [DecidableEq ι] [Nonempty ι] (a : ι → ℝ) (i : ι) (m1 M : EReal)
    (hm1 : m1 = Finset.univ.fold max (⊥ : EReal) (fun j => (a j : EReal)))
    (hM : M = Finset.univ.fold max (⊥ : EReal) (fun j => (a j : EReal) + (if j = i then (1 : EReal) else 0))) (j : ι) :
    Ideal.div (if j = i then Ideal.exp (((a i : EReal) + 1) - max m1 ((a i : EReal) + 1))
                 else Ideal.exp ((a j : EReal) - m1) * Ideal.exp (m1 - max m1 ((a i : EReal) + 1)))
        (Ideal.exp (m1 - max m1 ((a i : EReal) + 1)) * (((0 : EReal) + ∑ k, Ideal.exp ((a k : EReal) - m1)) - Ideal.exp ((a i : EReal) - m1))
          + Ideal.exp (((a i : EReal) + 1) - max m1 ((a i : EReal) + 1)))
      = Ideal.div (Ideal.exp (((a j : EReal) + (if j = i then (1 : EReal) else 0)) - M))
          ((0 : EReal) + ∑ k, Ideal.exp (((a k : EReal) + (if k = i then (1 : EReal) else 0)) - M)) := by
  obtain ⟨r1, hr1, -, -⟩ := fold_max_real a
  have hM' : M = max m1 ((a i : EReal) + 1) := by rw [hM, fold_max_shift, ← hm1]
  have hm1' : m1 = (r1 : EReal) := hm1.trans hr1
  have hmax : max m1 ((a i : EReal) + 1) = ((max r1 (a i + 1) : ℝ) : EReal) := by
    rw [hm1', coe_max, EReal.coe_add, EReal.coe_one]
  rw [hM', hmax, hm1']
  generalize max r1 (a i + 1) = m2
  have hnum : (if j = i then Ideal.exp (((a i : EReal) + 1) - (m2 : EReal))
        else Ideal.exp ((a j : EReal) - (r1 : EReal)) * Ideal.exp ((r1 : EReal) - (m2 : EReal)))
      = Ideal.exp (((a j : EReal) + (if j = i then (1 : EReal) else 0)) - (m2 : EReal)) := by
    by_cases h : j = i
    · subst h; rw [if_pos rfl, if_pos rfl]
    · rw [if_neg h, if_neg h, add_zero, ← EReal.coe_sub, ← EReal.coe_sub, ← EReal.coe_sub, Ideal.exp_coe,
        Ideal.exp_coe, Ideal.exp_coe, ← EReal.coe_mul, ← Real.exp_add]
      congr 2; ring
  have hden : Ideal.exp ((r1 : EReal) - (m2 : EReal))
          * (((0 : EReal) + ∑ k, Ideal.exp ((a k : EReal) - (r1 : EReal))) - Ideal.exp ((a i : EReal) - (r1 : EReal)))
        + Ideal.exp (((a i : EReal) + 1) - (m2 : EReal))
      = (0 : EReal) + ∑ k, Ideal.exp (((a k : EReal) + (if k = i then (1 : EReal) else 0)) - (m2 : EReal)) := by
    have h1 : (a i : EReal) + 1 = ((a i + 1 : ℝ) : EReal) := by rw [EReal.coe_add, EReal.coe_one]
    simp only [coe_shift, h1]
    simp only [← EReal.coe_sub, ← EReal.coe_add, Ideal.exp_coe, zero_add, ← coe_sum, ← EReal.coe_mul]
    rw [real_den]
  rw [hnum, hden]

end Cert.RowShift
-- ==== Proof.RefRead.lean ====
/-
  The reference's arrays read at one index, at the ideal values (extended reals, every operation its
  textbook one): the masked similarity at (i, j), the unit shift of the diagonal, a row's maximum as the
  fold of `max` from `⊥` over the row, the row softmax as a quotient of exponentials by their row sum,
  the matrix product as a sum over the contracted coordinate, and the leaky rectification as a choice
  by the sign. Indices are written by their coordinates and every sum runs over a literal `Fin`.
-/
import proofs.«120257_j64768106823900_2_alg».proof.Proof.RefTerms
import proofs.«120257_j64768106823900_2_alg».proof.Proof.RowShift
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws
import Idealize.ShloMosaic.PureOps.Reduce

noncomputable section

namespace Cert.ReferenceIdeal.RefRead

open Cert.ReferenceIdeal Idealize.ShloMosaic Idealize.ShloMosaic.ValueIdx
open Facts₀ Facts
open scoped BigOperators

/-! ### Shape facts and index bookkeeping -/

/-- The 8192 × 8192 shape with its second axis removed is the length-8192 shape. -/
theorem reduces_row : S8192x8192.Reduces [1] S8192 := by decide

/-- The index over row `i` with coordinate `k` inserted on the removed (second) axis is `(i, k)`. -/
theorem lift_row (i k : Fin 8192) : reduces_row.lift (ix1 i) k = ix2 i k := by
  funext c
  match c with
  | ⟨0, _⟩ => exact Fin.ext rfl
  | ⟨1, _⟩ => exact Fin.ext rfl

/-- A length-8192 vector broadcast first to a column (8192 × 1) and then along the rows (8192 × 8192)
    reads, at `(i, j)`, its entry `i`. -/
theorem bcast_col_apply {α : Type} (v : S8192.Idx → α) (i j : Fin 8192) :
    broadcastInDim S8192x8192 ![0, 1] bcast_S8192x1_S8192x8192_0_1
        (broadcastInDim S8192x1 ![0] bcast_S8192_S8192x1_0 v) (ix2 i j) = v (ix1 i) := by
  rw [broadcastInDim_apply ![0, 1] bcast_S8192x1_S8192x8192_0_1 _ (ix2 i j) (ix2 i (0 : Fin 1))
      (fun a => by match a with | ⟨0, _⟩ => rfl | ⟨1, _⟩ => rfl),
    broadcastInDim_apply ![0] bcast_S8192_S8192x1_0 v (ix2 i (0 : Fin 1)) (ix1 i)
      (fun a => by match a with | ⟨0, _⟩ => rfl)]

/-- Two row or column numbers below 8192 have equal 32-bit words exactly when they are equal. -/
theorem ofNat_eq_iff (i j : Fin 8192) : BitVec.ofNat 32 i.val = BitVec.ofNat 32 j.val ↔ i = j := by
  constructor
  · intro h
    have := congrArg BitVec.toNat h
    simp only [BitVec.toNat_ofNat] at this
    have hi := i.isLt; have hj := j.isLt
    exact Fin.ext (by omega)
  · rintro rfl; rfl

/-! ### The arrays at an index -/

/-- The diagonal shift at `(i, j)`: the entry plus `1` on the diagonal, plus `0` off it. -/
theorem diagShift_apply (X : FVec Ideal S8192x8192 .f32) (i j : Fin 8192) :
    RefTerms.diagShift (F := Ideal) X (ix2 i j) = X (ix2 i j) + (if i = j then (1 : EReal) else 0) := by
  show X (ix2 i j) + (((IntOp.cmpi .eq (IntOp.addi (BitVec.ofNat 32 i.val) 0#32) (BitVec.ofNat 32 j.val)).toNat : ℝ) : EReal) = _
  congr 1
  have h0 : IntOp.addi (BitVec.ofNat 32 i.val) 0#32 = BitVec.ofNat 32 i.val := by
    show BitVec.ofNat 32 i.val + 0#32 = _; simp
  rw [h0]
  by_cases h : i = j
  · subst h; rw [if_pos rfl]; simp [IntOp.cmpi]
  · rw [if_neg h]
    have hne : ¬ BitVec.ofNat 32 i.val = BitVec.ofNat 32 j.val := fun e => h ((ofNat_eq_iff i j).1 e)
    simp [IntOp.cmpi, hne]

/-- A row's maximum: the fold of `max` from `⊥` over the row's entries. -/
theorem rowMax_apply (X : FVec Ideal S8192x8192 .f32) (i : Fin 8192) :
    RefTerms.rowMax (F := Ideal) X (ix1 i)
      = Finset.univ.fold max (⊥ : EReal) (fun k : Fin 8192 => X (ix2 i k)) := by
  unfold RefTerms.rowMax
  rw [maximumf_apply, Host.reduce_eq_fold_single _ _ _ reducesTo_S8192x8192_S8192_d1 reduces_row]
  show max (Ideal.ofBits .f32 0xFF800000#32)
      (Finset.univ.fold max (Ideal.ofBits .f32 0xFF800000#32) (fun k : Fin 8192 => X (reduces_row.lift (ix1 i) k))) = _
  simp only [lift_row]
  rw [Cert.RowShift.ofBits_neg_inf, max_eq_right bot_le]

/-- The matrix product at `(i, o)`: the sum over the contracted coordinate of the products. -/
theorem propagate_apply (P : FVec Ideal S8192x8192 .f32) (HW : FVec Ideal S8192x128 .f32) (i : Fin 8192) (o : Fin 128) :
    RefTerms.propagate (F := Ideal) P HW (ix2 i o) = ∑ k : Fin 8192, P (ix2 i k) * HW (ix2 k o) := by
  have hd : dot_S8192x8192_S8192x128_S8192x128_1_0_0_1_n_n = DotDims.plain 8192 8192 128 := rfl
  unfold RefTerms.propagate
  rw [hd]
  exact StackMember.dotGeneral_plain_apply none P HW i o

/-- The leaky rectification at `(i, o)`: the entry where it is at least `0`, the slope times it elsewhere. -/
theorem leaky_apply (Y : FVec Ideal S8192x128 .f32) (i : Fin 8192) (o : Fin 128) :
    RefTerms.leaky (F := Ideal) Y (ix2 i o)
      = if Ideal.cmp .oge (Y (ix2 i o)) (Ideal.ofBits .f32 0x00000000#32) = 1#1 then Y (ix2 i o)
        else Ideal.ofBits .f32 0x3C23D70A#32 * Y (ix2 i o) := rfl

/-- The shifted exponentials at `(i, j)`: `exp` of the entry minus its row's maximum. -/
theorem expShift_apply (X : FVec Ideal S8192x8192 .f32) (i j : Fin 8192) :
    RefTerms.expShift (F := Ideal) X (ix2 i j)
      = Ideal.exp (X (ix2 i j) - RefTerms.rowMax (F := Ideal) X (ix1 i)) := by
  unfold RefTerms.expShift
  show Ideal.exp (X (ix2 i j) - broadcastInDim S8192x8192 ![0, 1] bcast_S8192x1_S8192x8192_0_1
      (broadcastInDim S8192x1 ![0] bcast_S8192_S8192x1_0 (RefTerms.rowMax (F := Ideal) X)) (ix2 i j)) = _
  rw [bcast_col_apply]

/-- The row softmax at `(i, j)`: the shifted exponential divided by the sum of its row's shifted exponentials. -/
theorem softmax_apply (X : FVec Ideal S8192x8192 .f32) (i j : Fin 8192) :
    RefTerms.softmax (F := Ideal) X (ix2 i j)
      = Ideal.div (Ideal.exp (X (ix2 i j) - RefTerms.rowMax (F := Ideal) X (ix1 i)))
          ((0 : EReal) + ∑ k : Fin 8192, Ideal.exp (X (ix2 i k) - RefTerms.rowMax (F := Ideal) X (ix1 i))) := by
  unfold RefTerms.softmax
  rw [hostDivf_apply, bcast_col_apply, expShift_apply, hostReduceAdd_apply,
    Ideal.hostReduceAdd_single reducesTo_S8192x8192_S8192_d1 reduces_row]
  show Ideal.div _ (Ideal.ofBits .f32 0x00000000#32
      + ∑ k : Fin 8192, RefTerms.expShift (F := Ideal) X (reduces_row.lift (ix1 i) k)) = _
  simp only [lift_row, expShift_apply, Ideal.ofBits_zero_f32]

/-- The masked similarity at `(i, j)`: where the ceiling of the adjacency entry times the small literal is
    positive, the logistic `1 / (1 + exp (-g))` of the Gram entry `g = ∑ k, Hx i k * Hx j k`; elsewhere the
    negative fill. -/
theorem masked_apply (A : FVec Ideal S8192x8192 .f32) (Hx : FVec Ideal S8192x256 .f32) (i j : Fin 8192) :
    RefTerms.masked (F := Ideal) A Hx (ix2 i j)
      = if Ideal.cmp .ogt (Ideal.liftRound Int.ceil (A (ix2 i j) * Ideal.ofBits .f32 0x3727C5AC#32))
            (Ideal.ofBits .f32 0x00000000#32) = 1#1
        then Ideal.div (Ideal.ofBits .f32 0x3F800000#32)
            (Ideal.ofBits .f32 0x3F800000#32 + Ideal.exp (-(∑ k : Fin 256, Hx (ix2 i k) * Hx (ix2 j k))))
        else Ideal.ofBits .f32 0xD9FFCB9E#32 := by
  have hd : dot_S8192x256_S256x8192_S8192x8192_1_0_0_1_n_n = DotDims.plain 8192 256 8192 := rfl
  have hg : Host.dotGeneral dot_S8192x256_S256x8192_S8192x8192_1_0_0_1_n_n none Hx
        (transpose S256x8192 [1, 0] Hx transposes_S8192x256_S256x8192_1_0) (ix2 i j)
      = ∑ k : Fin 256, Hx (ix2 i k) * Hx (ix2 j k) := by
    rw [hd, StackMember.dotGeneral_plain_apply]
    refine Finset.sum_congr rfl fun k _ => ?_
    rw [transpose_apply [1, 0] Hx transposes_S8192x256_S256x8192_1_0 (ix2 k j) (ix2 j k)
      (fun b => by match b with | ⟨0, _⟩ => rfl | ⟨1, _⟩ => rfl)]
  rw [← hg]
  rfl

end Cert.ReferenceIdeal.RefRead

end
-- ==== Proof.RowBridge.lean ====
/-
  The shifted-row softmax identity in the spellings the two programs produce: the row's entries are extended
  reals known to be real (each is a logistic value or a finite fill value), `-∞` and `1` appear as
  single-precision bit patterns, the recomputed row sum carries no leading zero, and the diagonal test is
  written with the row index first. Also: a logistic value is a real number, and the logistic function is
  `1 / (1 + exp (-s))` with the `1`s as bit patterns; and the unshifted softmax, which only needs the two
  maxima to agree.
-/
import proofs.«120257_j64768106823900_2_alg».proof.Proof.RowShift
import Idealize.ShloMosaic.PureOps.Ideal

open Idealize.ShloMosaic

namespace Cert.RowBridge

open scoped BigOperators

/-- The logistic function takes real values at every extended real: `0` at `-∞`, `1` at `+∞`,
    `1 / (1 + exp (-r))` at a real `r`. -/
theorem logistic_real (s : EReal) : ∃ x : ℝ, Ideal.logistic s = (x : EReal) := by
  induction s using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- An entry that is a logistic value or the finite fill value is real. -/
theorem entry_real (c : Prop) [Decidable c] (s : EReal) :
    ∃ x : ℝ, (if c then Ideal.logistic s else Ideal.ofBits .f32 0xD9FFCB9E#32) = (x : EReal) := by
  by_cases h : c
  · rw [if_pos h]; exact logistic_real s
  · rw [if_neg h]; exact Cert.RowShift.ofBits_big_neg

/-- The logistic function is `1 / (1 + exp (-s))`, the two `1`s written as the bit pattern of `1`. -/
theorem logistic_eq (s : EReal) :
    Ideal.logistic s
      = Ideal.div (Ideal.ofBits .f32 0x3F800000#32) (Ideal.ofBits .f32 0x3F800000#32 + Ideal.exp (-s)) := by
  rw [Cert.RowShift.ofBits_one]; rfl

/-- The shifted-row identity for a row of extended reals that are real: the softmax of the row with `1` added at
    column `i`, recomputed from the unshifted row's maximum `m1` and sum of exponentials, equals the softmax taken
    directly with the shifted row's maximum `M`. -/
theorem shifted_row_prog {ι : Type} [Fintype ι] [DecidableEq ι] [Nonempty ι] (a : ι → EReal)
    (ha : ∀ j, ∃ x : ℝ, a j = (x : EReal)) (i j : ι) (m1 M : EReal)
    (hm1 : m1 = Finset.univ.fold max (Ideal.ofBits .f32 0xFF800000#32) a)
    (hM : M = Finset.univ.fold max (⊥ : EReal) (fun k => a k + (if i = k then (1 : EReal) else 0))) :
    Ideal.div (if j = i then Ideal.exp ((a i + Ideal.ofBits .f32 0x3F800000#32) - max m1 (a i + Ideal.ofBits .f32 0x3F800000#32))
                 else Ideal.exp (a j - m1) * Ideal.exp (m1 - max m1 (a i + Ideal.ofBits .f32 0x3F800000#32)))
        (Ideal.exp (m1 - max m1 (a i + Ideal.ofBits .f32 0x3F800000#32)) * ((∑ k, Ideal.exp (a k - m1)) - Ideal.exp (a i - m1))
          + Ideal.exp ((a i + Ideal.ofBits .f32 0x3F800000#32) - max m1 (a i + Ideal.ofBits .f32 0x3F800000#32)))
      = Ideal.div (Ideal.exp ((a j + (if i = j then (1 : EReal) else 0)) - M))
          ((0 : EReal) + ∑ k, Ideal.exp ((a k + (if i = k then (1 : EReal) else 0)) - M)) := by
  choose b hb using ha
  obtain rfl : a = fun j => (b j : EReal) := funext hb
  have hsw : ∀ k : ι, (if i = k then (1 : EReal) else 0) = (if k = i then (1 : EReal) else 0) := fun k => by
    by_cases h : i = k
    · rw [if_pos h, if_pos h.symm]
    · rw [if_neg h, if_neg (Ne.symm h)]
  simp only [hsw] at hM ⊢
  rw [Cert.RowShift.ofBits_neg_inf] at hm1
  rw [Cert.RowShift.ofBits_one]
  have key := Cert.RowShift.shifted_row b i m1 M hm1 hM j
  simp only [zero_add] at key ⊢
  exact key

/-- The unshifted softmax: the two maxima are the same extended real (the bit pattern `0xFF800000` is `-∞`), and
    a leading zero does not change the sum. -/
theorem softmax_same {ι : Type} [Fintype ι] (a : ι → EReal) (j : ι) (m1 M : EReal)
    (hm1 : m1 = Finset.univ.fold max (Ideal.ofBits .f32 0xFF800000#32) a)
    (hM : M = Finset.univ.fold max (⊥ : EReal) a) :
    Ideal.div (Ideal.exp (a j - m1)) (∑ k, Ideal.exp (a k - m1))
      = Ideal.div (Ideal.exp (a j - M)) ((0 : EReal) + ∑ k, Ideal.exp (a k - M)) := by
  have h : m1 = M := by rw [hm1, hM, Cert.RowShift.ofBits_neg_inf]
  rw [h, zero_add]

end Cert.RowBridge
-- ==== Proof.KPoint.lean ====
/-
  One block row of the kernel against the same row of the reference, entry by entry. With a the row
  of the masked similarity matrix (every entry a logistic value or the negative fill, hence real), the
  kernel's second softmax row is computed from the first softmax's maximum m1 and sum l1 by shifting
  the maximum to m2 = max m1 (a_i + 1), i the row's own column; the reference's is the softmax of the
  row with one added at column i. The two are equal by the law exp(x − m1) · exp(m1 − m2) = exp(x − m2)
  on the reals. The mask is the same: ⌈x · c⌉ > 0 exactly when x > 0, for the positive constant c.
-/
import proofs.«120257_j64768106823900_2_alg».proof.Proof.KBody
import proofs.«120257_j64768106823900_2_alg».proof.Proof.KDiag
import proofs.«120257_j64768106823900_2_alg».proof.Proof.KShift
import proofs.«120257_j64768106823900_2_alg».proof.Proof.KPieces
import proofs.«120257_j64768106823900_2_alg».proof.Proof.KBlocks
import proofs.«120257_j64768106823900_2_alg».proof.Proof.RefRead
import proofs.«120257_j64768106823900_2_alg».proof.Proof.RowBridge

noncomputable section

namespace Cert.KernelIdeal.Point

open Cert.KernelIdeal Cert.KernelIdeal.Gen Idealize.ShloMosaic Idealize.ShloMosaic.ValueIdx
open Cert.KernelIdeal.Body Cert.KernelIdeal.Pieces Cert.KernelIdeal.Blocks

variable (t : Fin cfg0.N) (x0 : Vec Ideal S128x8192 .f32) (x1 : Vec Ideal S8192x256 .f32) (x2 : Vec Ideal S8192x128 .f32)
  (A : FVec Ideal S8192x8192 .f32)
  (hx0 : ∀ (r : Fin 128) (j : Fin 8192), x0 (ix2 r j) = A (ix2 (rowOf t r) j))

/-- The row of the reference's masked similarity matrix. -/
abbrev rowA (i : Fin 8192) : Fin 8192 → EReal := fun j => Cert.ReferenceIdeal.RefTerms.masked (F := Ideal) A x1 (ix2 i j)

/-- An entry of the masked similarity matrix in the kernel's spelling (the adjacency compared with
    zero, the logistic as one operation) is the reference's (the ceiling of a positive multiple
    compared with zero, the logistic spelt out). -/
theorem masked_entry (i j : Fin 8192) :
    (if Ideal.cmp .ogt (A (ix2 i j)) (Ideal.ofBits .f32 0x00000000#32) = 1#1
      then Ideal.logistic (∑ k : Fin 256, x1 (ix2 i k) * x1 (ix2 j k)) else Ideal.ofBits .f32 0xD9FFCB9E#32)
      = rowA x1 A i j := by
  show _ = Cert.ReferenceIdeal.RefTerms.masked (F := Ideal) A x1 (ix2 i j)
  rw [Cert.ReferenceIdeal.RefRead.masked_apply, Cert.RowShift.mask_ereal]
  by_cases hc : Ideal.cmp .ogt (A (ix2 i j)) (Ideal.ofBits .f32 0x00000000#32) = 1#1
  · rw [if_pos hc, if_pos hc]; exact Cert.RowBridge.logistic_eq _
  · rw [if_neg hc, if_neg hc]

/-- Every entry of the row is a real number. -/
theorem rowA_real (i j : Fin 8192) : ∃ x : ℝ, rowA x1 A i j = (x : EReal) := by
  rw [← masked_entry x1 A i j]
  exact Cert.RowBridge.entry_real _ _

theorem row_lt (r : Fin 128) : 128 * t.val + r.val < 8192 := by
  have hN : cfg0.N = 64 := N_0
  have := t.isLt; have := r.isLt; omega

include hx0 in
/-- The kernel's masked similarity of block row r is the reference's row 128 t + r. -/
theorem sim_eq (r : Fin 128) (j : Fin 8192) :
    k0_pay4 (F := Ideal) x1 (ownRows (grid0.coords t) x1) x0 (ix2 r j) = rowA x1 A (rowOf t r) j := by
  rw [sim_apply, hx0 r j]
  have hown : ∀ k : Fin 256, ownRows (grid0.coords t) x1 (ix2 r k) = x1 (ix2 (rowOf t r) k) :=
    fun k => ownRows_apply t x1 r k (row_lt t r)
  simp only [hown]
  exact masked_entry x1 A (rowOf t r) j

include hx0 in
/-- The diagonal entry the kernel picks out of the diagonal block is the row's own column. -/
theorem diag_eq (r : Fin 128) :
    k0_pay9 (F := Ideal) (ownRows (grid0.coords t) x1) (diagBlock (grid0.coords t) x0) (ix2 r (0 : Fin 1))
      = rowA x1 A (rowOf t r) (rowOf t r) := by
  rw [diag_apply, diagBlock_apply t x0 r r (row_lt t r)]
  have hx : x0 (ix2 r (⟨128 * t.val + r.val, row_lt t r⟩ : Fin 8192)) = A (ix2 (rowOf t r) (rowOf t r)) := hx0 r (rowOf t r)
  rw [hx]
  have hown : ∀ k : Fin 256, ownRows (grid0.coords t) x1 (ix2 r k) = x1 (ix2 (rowOf t r) k) :=
    fun k => ownRows_apply t x1 r k (row_lt t r)
  simp only [hown]
  exact masked_entry x1 A (rowOf t r) (rowOf t r)

/-- The word comparison that finds the diagonal column: the row offset plus the block row equals the
    column exactly at the row's own column. -/
theorem diag_col (r : Fin 128) (j : Fin 8192) :
    IntOp.cmpi .eq (IntOp.addi (rowWord (grid0.coords t)) (BitVec.ofNat 32 r.val)) (BitVec.ofNat 32 j.val) = 1#1
      ↔ j = rowOf t r := by
  have hlt := row_lt t r
  rw [(offsets t).2.2.2.2]
  have hadd : IntOp.addi (BitVec.ofNat 32 (128 * t.val)) (BitVec.ofNat 32 r.val) = BitVec.ofNat 32 (128 * t.val + r.val) :=
    (BitVec.ofNat_add (128 * t.val) r.val).symm
  rw [hadd, cmpi_eq_one_iff (by omega) (by have := j.isLt; omega)]
  constructor
  · intro h; exact Fin.ext h.symm
  · intro h; rw [h]

include hx0 in
/-- The kernel's second softmax row is the reference's softmax of the diagonally shifted row. -/
theorem soft2_row (r : Fin 128) (j : Fin 8192) :
    k0_pay1 (F := Ideal) (rowWord (grid0.coords t))
        (k0_pay5 x1 (ownRows (grid0.coords t) x1) x0) (k0_pay6 x1 (ownRows (grid0.coords t) x1) x0)
        (k0_pay7 x1 (ownRows (grid0.coords t) x1) x0)
        (k0_pay9 (ownRows (grid0.coords t) x1) (diagBlock (grid0.coords t) x0))
        (k0_pay10 (ownRows (grid0.coords t) x1) (diagBlock (grid0.coords t) x0))
        (k0_pay11 x1 (ownRows (grid0.coords t) x1) x0 (diagBlock (grid0.coords t) x0)) (ix2 r j)
      = Cert.ReferenceIdeal.RefTerms.resultSoft (F := Ideal) A x1 (ix2 (rowOf t r) j) := by
  have h4 : ∀ j, k0_pay4 (F := Ideal) x1 (ownRows (grid0.coords t) x1) x0 (ix2 r j) = rowA x1 A (rowOf t r) j :=
    fun j => sim_eq t x0 x1 A hx0 r j
  have h5 : k0_pay5 (F := Ideal) x1 (ownRows (grid0.coords t) x1) x0 (ix2 r (0 : Fin 1))
      = Finset.univ.fold max (Ideal.ofBits .f32 0xFF800000#32) (rowA x1 A (rowOf t r)) := by
    rw [rowmax_apply]
    exact congrArg (fun f : Fin 8192 → EReal => Finset.univ.fold max (Ideal.ofBits .f32 0xFF800000#32) f) (funext h4)
  have h6 : ∀ j, k0_pay6 (F := Ideal) x1 (ownRows (grid0.coords t) x1) x0 (ix2 r j)
      = Ideal.exp (rowA x1 A (rowOf t r) j - Finset.univ.fold max (Ideal.ofBits .f32 0xFF800000#32) (rowA x1 A (rowOf t r))) :=
    fun j => by rw [expd_apply, h4 j, h5]
  have h7 : k0_pay7 (F := Ideal) x1 (ownRows (grid0.coords t) x1) x0 (ix2 r (0 : Fin 1))
      = ∑ k : Fin 8192, Ideal.exp (rowA x1 A (rowOf t r) k - Finset.univ.fold max (Ideal.ofBits .f32 0xFF800000#32) (rowA x1 A (rowOf t r))) := by
    rw [rowsum_apply]; exact Finset.sum_congr rfl fun k _ => h6 k
  have h9 := diag_eq t x0 x1 A hx0 r
  have h10 : k0_pay10 (F := Ideal) (ownRows (grid0.coords t) x1) (diagBlock (grid0.coords t) x0) (ix2 r (0 : Fin 1))
      = rowA x1 A (rowOf t r) (rowOf t r) + Ideal.ofBits .f32 0x3F800000#32 := by rw [newd_apply, h9]
  have h11 : k0_pay11 (F := Ideal) x1 (ownRows (grid0.coords t) x1) x0 (diagBlock (grid0.coords t) x0) (ix2 r (0 : Fin 1))
      = max (Finset.univ.fold max (Ideal.ofBits .f32 0xFF800000#32) (rowA x1 A (rowOf t r)))
          (rowA x1 A (rowOf t r) (rowOf t r) + Ideal.ofBits .f32 0x3F800000#32) := by rw [newmax_apply, h5, h10]
  rw [soft2_apply, h5, h6 j, h7, h9, h10, h11, if_congr (diag_col t r j) rfl rfl]
  refine (Cert.RowBridge.shifted_row_prog (rowA x1 A (rowOf t r)) (rowA_real x1 A (rowOf t r)) (rowOf t r) j _ _ rfl rfl).trans ?_
  symm
  show Cert.ReferenceIdeal.RefTerms.softmax (F := Ideal) (Cert.ReferenceIdeal.RefTerms.diagShift (F := Ideal) (Cert.ReferenceIdeal.RefTerms.masked (F := Ideal) A x1)) (ix2 (rowOf t r) j) = _
  rw [Cert.ReferenceIdeal.RefRead.softmax_apply, Cert.ReferenceIdeal.RefRead.rowMax_apply]
  simp only [Cert.ReferenceIdeal.RefRead.diagShift_apply]

include hx0 in
/-- The kernel's first softmax row is the reference's softmax of the row. -/
theorem soft1_row (r : Fin 128) (j : Fin 8192) :
    k0_pay8 (F := Ideal) x1 (ownRows (grid0.coords t) x1) x0 (ix2 r j)
      = Cert.ReferenceIdeal.RefTerms.softmax (F := Ideal) (Cert.ReferenceIdeal.RefTerms.masked (F := Ideal) A x1) (ix2 (rowOf t r) j) := by
  have h4 : ∀ j, k0_pay4 (F := Ideal) x1 (ownRows (grid0.coords t) x1) x0 (ix2 r j) = rowA x1 A (rowOf t r) j :=
    fun j => sim_eq t x0 x1 A hx0 r j
  have h5 : k0_pay5 (F := Ideal) x1 (ownRows (grid0.coords t) x1) x0 (ix2 r (0 : Fin 1))
      = Finset.univ.fold max (Ideal.ofBits .f32 0xFF800000#32) (rowA x1 A (rowOf t r)) := by
    rw [rowmax_apply]
    exact congrArg (fun f : Fin 8192 → EReal => Finset.univ.fold max (Ideal.ofBits .f32 0xFF800000#32) f) (funext h4)
  have h6 : ∀ j, k0_pay6 (F := Ideal) x1 (ownRows (grid0.coords t) x1) x0 (ix2 r j)
      = Ideal.exp (rowA x1 A (rowOf t r) j - Finset.univ.fold max (Ideal.ofBits .f32 0xFF800000#32) (rowA x1 A (rowOf t r))) :=
    fun j => by rw [expd_apply, h4 j, h5]
  have h7 : k0_pay7 (F := Ideal) x1 (ownRows (grid0.coords t) x1) x0 (ix2 r (0 : Fin 1))
      = ∑ k : Fin 8192, Ideal.exp (rowA x1 A (rowOf t r) k - Finset.univ.fold max (Ideal.ofBits .f32 0xFF800000#32) (rowA x1 A (rowOf t r))) := by
    rw [rowsum_apply]; exact Finset.sum_congr rfl fun k _ => h6 k
  rw [soft1_apply, h6 j, h7]
  refine (Cert.RowBridge.softmax_same (rowA x1 A (rowOf t r)) j _ _ rfl rfl).trans ?_
  symm
  rw [Cert.ReferenceIdeal.RefRead.softmax_apply, Cert.ReferenceIdeal.RefRead.rowMax_apply]

include hx0 in
/-- The kernel's output row is the reference's. -/
theorem out_row (r o : Fin 128) :
    k0_pay2 (F := Ideal) (rowWord (grid0.coords t))
        (k0_pay5 x1 (ownRows (grid0.coords t) x1) x0) (k0_pay6 x1 (ownRows (grid0.coords t) x1) x0)
        (k0_pay7 x1 (ownRows (grid0.coords t) x1) x0) (k0_pay8 x1 (ownRows (grid0.coords t) x1) x0)
        (k0_pay9 (ownRows (grid0.coords t) x1) (diagBlock (grid0.coords t) x0))
        (k0_pay10 (ownRows (grid0.coords t) x1) (diagBlock (grid0.coords t) x0))
        (k0_pay11 x1 (ownRows (grid0.coords t) x1) x0 (diagBlock (grid0.coords t) x0)) x2 (ix2 r o)
      = Cert.ReferenceIdeal.RefTerms.resultOut (F := Ideal) A x1 x2 (ix2 (rowOf t r) o) := by
  rw [out_apply]
  have e1 : ∀ j : Fin 8192, k0_pay1 (F := Ideal) (rowWord (grid0.coords t))
        (k0_pay5 x1 (ownRows (grid0.coords t) x1) x0) (k0_pay6 x1 (ownRows (grid0.coords t) x1) x0)
        (k0_pay7 x1 (ownRows (grid0.coords t) x1) x0)
        (k0_pay9 (ownRows (grid0.coords t) x1) (diagBlock (grid0.coords t) x0))
        (k0_pay10 (ownRows (grid0.coords t) x1) (diagBlock (grid0.coords t) x0))
        (k0_pay11 x1 (ownRows (grid0.coords t) x1) x0 (diagBlock (grid0.coords t) x0)) (ix2 r j)
      = Cert.ReferenceIdeal.RefTerms.resultSoft (F := Ideal) A x1 (ix2 (rowOf t r) j) := fun j => soft2_row t x0 x1 A hx0 r j
  have e2 : ∀ j : Fin 8192, k0_pay8 (F := Ideal) x1 (ownRows (grid0.coords t) x1) x0 (ix2 r j)
      = Cert.ReferenceIdeal.RefTerms.softmax (F := Ideal) (Cert.ReferenceIdeal.RefTerms.masked (F := Ideal) A x1) (ix2 (rowOf t r) j) := fun j => soft1_row t x0 x1 A hx0 r j
  simp only [e1, e2]
  symm
  show Cert.ReferenceIdeal.RefTerms.leaky (F := Ideal) (Cert.ReferenceIdeal.RefTerms.propagate (F := Ideal) (Cert.ReferenceIdeal.RefTerms.resultSoft (F := Ideal) A x1) x2) (ix2 (rowOf t r) o)
      + Cert.ReferenceIdeal.RefTerms.leaky (F := Ideal) (Cert.ReferenceIdeal.RefTerms.propagate (F := Ideal) (Cert.ReferenceIdeal.RefTerms.softmax (F := Ideal) (Cert.ReferenceIdeal.RefTerms.masked (F := Ideal) A x1)) x2) (ix2 (rowOf t r) o) = _
  rw [Cert.ReferenceIdeal.RefRead.leaky_apply, Cert.ReferenceIdeal.RefRead.leaky_apply, Cert.ReferenceIdeal.RefRead.propagate_apply, Cert.ReferenceIdeal.RefRead.propagate_apply]
  rfl

end Cert.KernelIdeal.Point

end
-- ==== Proof.HostPrefix.lean ====
/-
  The arrays the kernel program's host operations leave for its one region: before the region the program
  runs the same host prefix as the reference — the column means and variances of the features, the
  reciprocal square root, the affine normalisation and the two affine projections —, so the two projected
  arrays the region reads are the reference's functions of the argument arrays, and the adjacency array is
  untouched.
-/
import proofs.«120257_j64768106823900_2_alg».proof.Proof.Gen.KernelIdeal.Frame
import proofs.«120257_j64768106823900_2_alg».proof.Proof.RefTerms
import Idealize.ShloMosaic.Lib.StableHlo.Run

noncomputable section

namespace Cert.KernelIdeal.HostPrefix

open Cert.KernelIdeal Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduceAdd transpose broadcastInDim iotaInDim in
set_option maxRecDepth 16384 in
set_option maxHeartbeats 1600000 in
/-- The first projection as the region finds it: the reference's, of the normalised features. -/
theorem V_proj1 (c : Dev nD) :
    (Gen.V m c main_v22 : S8192x256.Idx → F .f32)
      = Cert.ReferenceIdeal.RefTerms.proj1
          (Cert.ReferenceIdeal.RefTerms.normed (m ((c : Thread nD τ).loc main_arg0)) (m ((c : Thread nD τ).loc main_arg2))
            (m ((c : Thread nD τ).loc main_arg3)))
          (m ((c : Thread nD τ).loc main_arg4)) (m ((c : Thread nD τ).loc main_arg5)) := by
  dsimp only [Gen.V]
  simp only [Gen.hostOps0, Gen.hostOps0_1, Gen.hostOps0_2, List.flatten_cons, List.flatten_nil, List.append_nil,
    List.cons_append, List.nil_append]
  after_results_simp
  rfl

attribute [local irreducible] Host.reduce Host.reduceAdd transpose broadcastInDim iotaInDim in
set_option maxRecDepth 16384 in
set_option maxHeartbeats 1600000 in
/-- The second projection as the region finds it: the reference's, of the normalised features. -/
theorem V_proj2 (c : Dev nD) :
    (Gen.V m c main_v26 : S8192x128.Idx → F .f32)
      = Cert.ReferenceIdeal.RefTerms.proj2
          (Cert.ReferenceIdeal.RefTerms.normed (m ((c : Thread nD τ).loc main_arg0)) (m ((c : Thread nD τ).loc main_arg2))
            (m ((c : Thread nD τ).loc main_arg3)))
          (m ((c : Thread nD τ).loc main_arg6)) (m ((c : Thread nD τ).loc main_arg7)) := by
  dsimp only [Gen.V]
  simp only [Gen.hostOps0, Gen.hostOps0_1, Gen.hostOps0_2, List.flatten_cons, List.flatten_nil, List.append_nil,
    List.cons_append, List.nil_append]
  after_results_simp
  rfl

/-- No host operation writes the adjacency array: the region finds it as launched. -/
theorem V_arg1 (c : Dev nD) : Gen.V m c main_arg1 = m ((c : Thread nD τ).loc main_arg1) := Gen.V_main_arg1 m c

end Cert.KernelIdeal.HostPrefix

end
-- ==== Proof.KRun.lean ====
/-
  The kernel's run read as values: after its one grid of 64 points, each writing back one block of 128
  rows, the two result arrays are the reference's two functions of the arguments — every block row
  entry by entry, the blocks tiling the arrays, and the two projections the region finds being the
  same host computation as the reference's.
-/
import proofs.«120257_j64768106823900_2_alg».proof.Proof.KPoint
import proofs.«120257_j64768106823900_2_alg».proof.Proof.KBlocks
import proofs.«120257_j64768106823900_2_alg».proof.Proof.KPieces
import proofs.«120257_j64768106823900_2_alg».proof.Proof.HostPrefix
import proofs.«120257_j64768106823900_2_alg».proof.Proof.Gen.KernelIdeal.Value

noncomputable section

namespace Cert.KernelIdeal.KRun

open Cert.KernelIdeal Cert.KernelIdeal.Gen Idealize.ShloMosaic Idealize.ShloMosaic.TcCoe Idealize.SL.Sem Idealize.ShloMosaic.ValueIdx
open Cert.KernelIdeal.Blocks

variable (m : (ℓ : Loc nD τ sig) → Buf (Elt Ideal) ℓ) (ρ : Dev nD → PrngReg)

/-- Block row r of point t of the second result is row 128 t + r of the reference's softmax of the
    shifted masked similarity. -/
theorem point_soft (c : Dev nD) (t : Fin cfg0.N) (r : Fin 128) (j : Fin 8192) :
    out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r j)
      = Cert.ReferenceIdeal.RefTerms.resultSoft (F := Ideal) (V m c main_arg1) (V m c main_v22) (ix2 (rowOf t r) j) := by
  refine (congrFun (Pieces.soft_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)) (ix2 r j)).trans ?_
  have h := Point.soft2_row t (iblk m c 0 t) (iblk m c 1 t) (V m c main_arg1) (fun r j => iblk0_apply m c t r j) r j
  rw [iblk1_eq m c t] at h ⊢
  exact h

/-- Block row r of point t of the first result is row 128 t + r of the reference's output. -/
theorem point_out (c : Dev nD) (t : Fin cfg0.N) (r o : Fin 128) :
    out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (ix2 r o)
      = Cert.ReferenceIdeal.RefTerms.resultOut (F := Ideal) (V m c main_arg1) (V m c main_v22) (V m c main_v26) (ix2 (rowOf t r) o) := by
  refine (congrFun (Pieces.out_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)) (ix2 r o)).trans ?_
  have h := Point.out_row t (iblk m c 0 t) (iblk m c 1 t) (iblk m c 2 t) (V m c main_arg1) (fun r j => iblk0_apply m c t r j) r o
  rw [iblk1_eq m c t, iblk2_eq m c t] at h ⊢
  exact h

/-- The second result array after the run. -/
theorem final_soft (c : Dev nD) :
    (dats m 0 c).arrAt 3 cfg0.N = Cert.ReferenceIdeal.RefTerms.resultSoft (F := Ideal) (m ((c : Thread nD τ).loc main_arg1)) (Cert.ReferenceIdeal.RefTerms.proj1 (Cert.ReferenceIdeal.RefTerms.normed (m ((c : Thread nD τ).loc main_arg0)) (m ((c : Thread nD τ).loc main_arg2)) (m ((c : Thread nD τ).loc main_arg3))) (m ((c : Thread nD τ).loc main_arg4)) (m ((c : Thread nD τ).loc main_arg5))) := by
  rw [← HostPrefix.V_proj1 m c, ← V_main_arg1 m c]
  exact final3 m c _ (point_soft m c)

/-- The first result array after the run. -/
theorem final_out (c : Dev nD) :
    (dats m 0 c).arrAt 4 cfg0.N = Cert.ReferenceIdeal.RefTerms.resultOut (F := Ideal) (m ((c : Thread nD τ).loc main_arg1)) (Cert.ReferenceIdeal.RefTerms.proj1 (Cert.ReferenceIdeal.RefTerms.normed (m ((c : Thread nD τ).loc main_arg0)) (m ((c : Thread nD τ).loc main_arg2)) (m ((c : Thread nD τ).loc main_arg3))) (m ((c : Thread nD τ).loc main_arg4)) (m ((c : Thread nD τ).loc main_arg5))) (Cert.ReferenceIdeal.RefTerms.proj2 (Cert.ReferenceIdeal.RefTerms.normed (m ((c : Thread nD τ).loc main_arg0)) (m ((c : Thread nD τ).loc main_arg2)) (m ((c : Thread nD τ).loc main_arg3))) (m ((c : Thread nD τ).loc main_arg6)) (m ((c : Thread nD τ).loc main_arg7))) := by
  rw [← HostPrefix.V_proj1 m c, ← HostPrefix.V_proj2 m c, ← V_main_arg1 m c]
  exact final4 m c _ (point_out m c)

/-- Every weakly fair execution of the kernel's program terminates with the two results at the
    reference's functions of the arguments, the arguments unchanged. -/
theorem run : θ_run defs (onTc (τ := τ) (main (F := Ideal))) ⟨m, fun _ => 0, ρ⟩ fun r => ∀ c : Dev nD,
      r.2.mem ((c : Thread nD τ).loc main_v27_1) = Cert.ReferenceIdeal.RefTerms.resultOut (F := Ideal) (m ((c : Thread nD τ).loc main_arg1)) (Cert.ReferenceIdeal.RefTerms.proj1 (Cert.ReferenceIdeal.RefTerms.normed (m ((c : Thread nD τ).loc main_arg0)) (m ((c : Thread nD τ).loc main_arg2)) (m ((c : Thread nD τ).loc main_arg3))) (m ((c : Thread nD τ).loc main_arg4)) (m ((c : Thread nD τ).loc main_arg5))) (Cert.ReferenceIdeal.RefTerms.proj2 (Cert.ReferenceIdeal.RefTerms.normed (m ((c : Thread nD τ).loc main_arg0)) (m ((c : Thread nD τ).loc main_arg2)) (m ((c : Thread nD τ).loc main_arg3))) (m ((c : Thread nD τ).loc main_arg6)) (m ((c : Thread nD τ).loc main_arg7)))
      ∧ r.2.mem ((c : Thread nD τ).loc main_v27_0) = Cert.ReferenceIdeal.RefTerms.resultSoft (F := Ideal) (m ((c : Thread nD τ).loc main_arg1)) (Cert.ReferenceIdeal.RefTerms.proj1 (Cert.ReferenceIdeal.RefTerms.normed (m ((c : Thread nD τ).loc main_arg0)) (m ((c : Thread nD τ).loc main_arg2)) (m ((c : Thread nD τ).loc main_arg3))) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2.1.trans (final_out m c), (h c).1.trans (final_soft m c), (h c).2.2⟩)
    (Cert.KernelIdeal.Value.run_blocks m ρ)

end Cert.KernelIdeal.KRun

end
-- ==== Proof.lean ====
/-
  A graph-propagation layer: features normalised column by column, two affine projections Hx and HW,
  a masked similarity matrix (the logistic of Hx · Hxᵀ where the adjacency is positive, a large negative
  fill elsewhere), its row softmax and the row softmax of the same matrix with one added on the
  diagonal, each multiplied into HW, passed through a leaky rectification, and added.

  The kernel computes one block of 128 rows per grid point. It forms the first softmax of a row from
  the row maximum m1 and the row sum l1 of exp(a − m1), and derives the second one without a second
  pass: with d the row's diagonal entry and m2 = max m1 (d + 1), away from the diagonal the numerator
  is exp(a − m1) · exp(m1 − m2), on it exp(d + 1 − m2), and the denominator
  exp(m1 − m2) · (l1 − exp(d − m1)) + exp(d + 1 − m2). Over the extended reals this equals the softmax
  of the shifted row because every entry of the row is real (a logistic value or the finite fill), so
  that exp(x − m1) · exp(m1 − m2) = exp(x − m2) and the sums split at the diagonal. The two masks agree
  on every extended real: for the positive constant c, ⌈x · c⌉ > 0 exactly when x > 0. A matrix
  product into a zero accumulator and the host's product are one sum, whatever the blocking; the
  projections are the same host computation in both programs. No fact about the inputs is used beyond
  their being extended reals, so the precondition is never opened. The ideal pass rewrote nothing.
-/
import proofs.«120257_j64768106823900_2_alg».proof.Defs
import proofs.«120257_j64768106823900_2_alg».proof.Proof.Gen.Kernel
import proofs.«120257_j64768106823900_2_alg».proof.Proof.Gen.Kernel.Frame
import proofs.«120257_j64768106823900_2_alg».proof.Proof.Gen.KernelIdeal
import proofs.«120257_j64768106823900_2_alg».proof.Proof.Gen.KernelIdeal.Frame
import proofs.«120257_j64768106823900_2_alg».proof.Proof.Gen.KernelIdeal.Value
import proofs.«120257_j64768106823900_2_alg».proof.Proof.Gen.ReferenceIdeal
import proofs.«120257_j64768106823900_2_alg».proof.Proof.Gen.Pre_finite_inputs
import proofs.«120257_j64768106823900_2_alg».proof.Proof.RefRun
import proofs.«120257_j64768106823900_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The two programs end with equal results: both runs end at the same two functions of the
    arguments, and the arguments agree. -/
theorem algebraic : Cert.algebraic_KernelIdeal_ReferenceIdeal := by
  intro m ρ m' ρ' _ hagree
  refine ⟨fun c => Cert.ReferenceIdeal.RefTerms.resultOut (F := Ideal) (m ((c.tc : Thread Cert.KernelIdeal.nD Cert.KernelIdeal.τ).loc Cert.KernelIdeal.main_arg1)) (Cert.ReferenceIdeal.RefTerms.proj1 (Cert.ReferenceIdeal.RefTerms.normed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.ReferenceIdeal.RefTerms.proj2 (Cert.ReferenceIdeal.RefTerms.normed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.ReferenceIdeal.RefTerms.resultSoft (F := Ideal) (m ((c.tc : Thread Cert.KernelIdeal.nD Cert.KernelIdeal.τ).loc Cert.KernelIdeal.main_arg1)) (Cert.ReferenceIdeal.RefTerms.proj1 (Cert.ReferenceIdeal.RefTerms.normed (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [(hagree c).1, (hagree c).2.1, (hagree c).2.2.1, (hagree c).2.2.2.1, (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
